-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x64x64 : Shape := ⟨4, ![8, 128, 64, 64]⟩
abbrev S8 : Shape := ⟨1, ![8]⟩
abbrev S8x128 : Shape := ⟨2, ![8, 128]⟩
abbrev S128x256 : Shape := ⟨2, ![128, 256]⟩
abbrev S128x1 : Shape := ⟨2, ![128, 1]⟩
abbrev S_ : Shape := ⟨0, ![]⟩

class Facts : Prop where
  bcast_S_S8x128x64x64 : S_.BroadcastsInDim S8x128x64x64 (![] : Fin 0 → Fin S8x128x64x64.rank)
  reducesTo_S8x128x64x64_S_d0_1_2_3 : S8x128x64x64.ReducesTo [0, 1, 2, 3] S_
  h_S_ : 0 < S_.numel
  bcast_S_S8x128 : S_.BroadcastsInDim S8x128 (![] : Fin 0 → Fin S8x128.rank)
  reducesTo_S8x128_S_d0_1 : S8x128.ReducesTo [0, 1] S_
  bcast_S_S128x256 : S_.BroadcastsInDim S128x256 (![] : Fin 0 → Fin S128x256.rank)
  reducesTo_S128x256_S_d0_1 : S128x256.ReducesTo [0, 1] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_arg5 : FVec F S128x1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S128x1 .f32 := Host.absf main_arg5
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  main_v23

def fn {F : FTy → Type} [FloatOps F] (main_arg0 : FVec F S8x128x64x64 .f32) (main_arg1 : IVec S8 32) (main_arg2 : FVec F S8x128 .f32) (main_arg3 : FVec F S128x256 .f32) (main_arg4 : FVec F S128x1 .f32) (main_arg5 : FVec F S128x1 .f32) : IVec S_ 1 :=
  let main_v0 : FVec F S8x128x64x64 .f32 := Host.absf main_arg0
  let main_cst : FVec F S_ .f32 := constant S_ .f32 0x7F800000#32
  let main_v1 : FVec F S8x128x64x64 .f32 := broadcastInDim S8x128x64x64 ![] bcast_S_S8x128x64x64 main_cst
  let main_v2 : IVec S8x128x64x64 1 := cmpf .olt main_v0 main_v1
  let main_c : IVec S_ 1 := constantI S_ 1 1#1
  let main_v3 : IVec S_ 1 := (fun x v => Host.reduce IntOp.andi x v reducesTo_S8x128x64x64_S_d0_1_2_3 h_S_) main_v2 main_c
  let main_v4 : FVec F S8x128 .f32 := Host.absf main_arg2
  let main_cst_0 : FVec F S_ .f32 := constant S_ .f32 0x7F800000#32
  let main_v5 : FVec F S8x128 .f32 := broadcastInDim S8x128 ![] bcast_S_S8x128 main_cst_0
  let main_v6 : IVec S8x128 1 := cmpf .olt main_v4 main_v5
  let main_c_1 : IVec S_ 1 := constantI S_ 1 1#1
  let main_v7 : IVec S_ 1 := (fun x v => Host.reduce IntOp.andi x v reducesTo_S8x128_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S8x128x64x64 : Shape := ⟨4, ![8, 128, 64, 64]⟩
abbrev S8 : Shape := ⟨1, ![8]⟩
abbrev S8x128 : Shape := ⟨2, ![8, 128]⟩
abbrev S128x256 : Shape := ⟨2, ![128, 256]⟩
abbrev S128x1 : Shape := ⟨2, ![128, 1]⟩
abbrev S8x128x4096 : Shape := ⟨3, ![8, 128, 4096]⟩
abbrev S128x128 : Shape := ⟨2, ![128, 128]⟩
abbrev S8x1x128 : Shape := ⟨3, ![8, 1, 128]⟩
abbrev S1x128 : Shape := ⟨2, ![1, 128]⟩
abbrev S8x1 : Shape := ⟨2, ![8, 1]⟩
abbrev S8x128x1 : Shape := ⟨3, ![8, 128, 1]⟩
abbrev S8x128x3 : Shape := ⟨3, ![8, 128, 3]⟩
abbrev S1x128x2048 : Shape := ⟨3, ![1, 128, 2048]⟩
abbrev S1x1x128 : Shape := ⟨3, ![1, 1, 128]⟩
abbrev S1x128x3 : Shape := ⟨3, ![1, 128, 3]⟩
abbrev S128 : Shape := ⟨1, ![128]⟩
abbrev S128x3 : Shape := ⟨2, ![128, 3]⟩
abbrev S128x2048 : Shape := ⟨2, ![128, 2048]⟩

abbrev nBuf : Space → Nat
  | .hbm => 23
  | .vmem => 10
  | .smem => 0
  | _ => 0

abbrev bufTy : (tb : Table) → Fin (tcTables nBuf tb) → BufTy
  | .hbm, ⟨0, _⟩ => ⟨S8x128x64x64, .f32⟩
  | .hbm, ⟨1, _⟩ => ⟨S8, .i32⟩
  | .hbm, ⟨2, _⟩ => ⟨S8x128, .f32⟩
  | .hbm, ⟨3, _⟩ => ⟨S128x256, .f32⟩
  | .hbm, ⟨4, _⟩ => ⟨S128x1, .f32⟩
  | .hbm, ⟨5, _⟩ => ⟨S128x1, .f32⟩
  | .hbm, ⟨6, _⟩ => ⟨S8x128x4096, .f32⟩
  | .hbm, ⟨7, _⟩ => ⟨S128x128, .f32⟩
  | .hbm, ⟨8, _⟩ => ⟨S128x128, .f32⟩
  | .hbm, ⟨9, _⟩ => ⟨S8x1x128, .f32⟩
  | .hbm, ⟨10, _⟩ => ⟨S1x128, .f32⟩
  | .hbm, ⟨11, _⟩ => ⟨S8x128, .f32⟩
  | .hbm, ⟨12, _⟩ => ⟨S1x128, .f32⟩
  | .hbm, ⟨13, _⟩ => ⟨S8x128, .f32⟩
  | .hbm, ⟨14, _⟩ => ⟨S8, .f32⟩
  | .hbm, ⟨15, _⟩ => ⟨S8x1, .f32⟩
  | .hbm, ⟨16, _⟩ => ⟨S8x128, .f32⟩
  | .hbm, ⟨17, _⟩ => ⟨S8x128x1, .f32⟩
  | .hbm, ⟨18, _⟩ => ⟨S8x128x1, .f32⟩
  | .hbm, ⟨19, _⟩ => ⟨S8x128x1, .f32⟩
  | .hbm, ⟨20, _⟩ => ⟨S8x128x3, .f32⟩
  | .hbm, ⟨21, _⟩ => ⟨S8x128x4096, .f32⟩
  | .hbm, ⟨22, _⟩ => ⟨S8x128x64x64, .f32⟩
  | .local _ .vmem, ⟨0, _⟩ => ⟨S1x128x2048, .f32⟩
  | .local _ .vmem, ⟨1, _⟩ => ⟨S1x128x2048, .f32⟩
  | .local _ .vmem, ⟨2, _⟩ => ⟨S128x128, .f32⟩
  | .local _ .vmem, ⟨3, _⟩ => ⟨S128x128, .f32⟩
  | .local _ .vmem, ⟨4, _⟩ => ⟨S1x1x128, .f32⟩
  | .local _ .vmem, ⟨5, _⟩ => ⟨S1x1x128, .f32⟩
  | .local _ .vmem, ⟨6, _⟩ => ⟨S1x128x3, .f32⟩
  | .local _ .vmem, ⟨7, _⟩ => ⟨S1x128x3, .f32⟩
  | .local _ .vmem, ⟨8, _⟩ => ⟨S1x128x2048, .f32⟩
  | .local _ .vmem, ⟨9, _⟩ => ⟨S1x128x2048, .f32⟩
  | _, _ => ⟨S8x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S8x128x64x64_S8x128x4096 : S8x128x64x64.ShapeCasts S8x128x4096
  slices_S128x256_S128x128_0_0 : S128x256.Slices ![0, 0] S128x128
  slices_S128x256_S128x128_0_128 : S128x256.Slices ![0, 128] S128x128
  shapeCasts_S8x128_S8x1x128 : S8x128.ShapeCasts S8x1x128
  shapeCasts_S128x1_S1x128 : S128x1.ShapeCasts S1x128
  bcast_S1x128_S8x128_0_1 : S1x128.BroadcastsInDim S8x128 (![0, 1] : Fin 2 → Fin S8x128.rank)
  shapeCasts_S8_S8x1 : S8.ShapeCasts S8x1
  bcast_S8x1_S8x128_0_1 : S8x1.BroadcastsInDim S8x128 (![0, 1] : Fin 2 → Fin S8x128.rank)
  bcast_S8x128_S8x128x1_0_1 : S8x128.BroadcastsInDim S8x128x1 (![0, 1] : Fin 2 → Fin S8x128x1.rank)
  concatenates_S8x128x1_S8x128x1_S8x128x1_S8x128x3_d2 : Shape.Concatenates [S8x128x1, S8x128x1, S8x128x1] S8x128x3 2
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S128x128 : S1x128.Broadcasts S128x128
  reduces_S128x128_S128 : S128x128.Reduces [1] S128
  shapeCasts_S128_S128x1 : S128.ShapeCasts S128x1
  inb_S1x128x3_S1x128x3_0_0_0 : ∀ a, (![0, 0, 0] : Fin 3 → Nat) a + S1x128x3.size a ≤ S1x128x3.size a
  h_S1x128x3 : 0 < S1x128x3.numel
  shapeCasts_S1x128x3_S128x3 : S1x128x3.ShapeCasts S128x3
  slices_S128x3_o0_0_S128x1 : S128x3.Slices ![0, 0] S128x1
  slices_S128x3_o0_2_S128x1 : S128x3.Slices ![0, 2] S128x1
  slices_S128x3_o0_1_S128x1 : S128x3.Slices ![0, 1] S128x1
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  broadcasts_S128x1_S128x2048 : S128x1.Broadcasts S128x2048
  shapeCasts_S128x2048_S1x128x2048 : S128x2048.ShapeCasts S1x128x2048
  shapeCasts_S8x128x4096_S8x128x64x64 : S8x128x4096.ShapeCasts S8x128x64x64
  dot_S128x128_S128x2048_S128x2048_1_0_0_1_n_n_wf : DotDims.WF S128x128 S128x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S8x128x4096.size a
  hwx0_0 : ∀ i : grid0.Coords, EltTy.bits .f32 = 32 ∨ (Rect.block (s := S8x128x4096) S1x128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S8x1x128.size a
  hwx0_3 : ∀ i : grid0.Coords, EltTy.bits .f32 = 32 ∨ (Rect.block (s := S8x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x3.size a ≤ S8x128x3.size a
  hwx0_4 : ∀ i : grid0.Coords, EltTy.bits .f32 = 32 ∨ (Rect.block (s := S8x128x3) S1x128x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x2048.size a ≤ S8x128x4096.size a
  hwx0_5 : ∀ i : grid0.Coords, EltTy.bits .f32 = 32 ∨ (Rect.block (s := S8x128x4096) S1x128x2048.size (cc0_transform_5 i) (hinb0_5 i)).WholeWords (EltTy.packing .f32)

variable [Facts₀]

def dot_S128x128_S128x2048_S128x2048_1_0_0_1_n_n : DotDims S128x128 S128x2048 S128x2048 where
  lhsContracting := [1]
  rhsContracting := [0]
  lhsNonContracting := [0]
  rhsNonContracting := [1]
  lhsBatch := []
  rhsBatch := []
  wf := dot_S128x128_S128x2048_S128x2048_1_0_0_1_n_n_wf

abbrev win0_0 : Pipeline.Window sig grid0 :=
  Pipeline.Window.ofSpec (Memref.whole main_v0) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x128x64x64 : Shape := ⟨4, ![8, 128, 64, 64]⟩
abbrev S8 : Shape := ⟨1, ![8]⟩
abbrev S8x128 : Shape := ⟨2, ![8, 128]⟩
abbrev S128x256 : Shape := ⟨2, ![128, 256]⟩
abbrev S128x1 : Shape := ⟨2, ![128, 1]⟩
abbrev S1024x4096 : Shape := ⟨2, ![1024, 4096]⟩
abbrev S8x8 : Shape := ⟨2, ![8, 8]⟩
abbrev S_ : Shape := ⟨0, ![]⟩
abbrev S128x128 : Shape := ⟨2, ![128, 128]⟩
abbrev S8x1x8x1 : Shape := ⟨4, ![8, 1, 8, 1]⟩
abbrev S1x128x1x128 : Shape := ⟨4, ![1, 128, 1, 128]⟩
abbrev S8x128x8x128 : Shape := ⟨4, ![8, 128, 8, 128]⟩
abbrev S1024x1024 : Shape := ⟨2, ![1024, 1024]⟩
abbrev S1x1024 : Shape := ⟨2, ![1, 1024]⟩
abbrev S128 : Shape := ⟨1, ![128]⟩
abbrev S1x128 : Shape := ⟨2, ![1, 128]⟩
abbrev S1024 : Shape := ⟨1, ![1024]⟩
abbrev S1024x1 : Shape := ⟨2, ![1024, 1]⟩
abbrev S1024x3 : Shape := ⟨2, ![1024, 3]⟩
abbrev S1024x2048 : Shape := ⟨2, ![1024, 2048]⟩

abbrev nBuf : Space → Nat
  | .hbm => 46
  | .vmem => 8
  | .smem => 0
  | _ => 0

abbrev bufTy : (tb : Table) → Fin (tcTables nBuf tb) → BufTy
  | .hbm, ⟨0, _⟩ => ⟨S8x128x64x64, .f32⟩
  | .hbm, ⟨1, _⟩ => ⟨S8, .i32⟩
  | .hbm, ⟨2, _⟩ => ⟨S8x128, .f32⟩
  | .hbm, ⟨3, _⟩ => ⟨S128x256, .f32⟩
  | .hbm, ⟨4, _⟩ => ⟨S128x1, .f32⟩
  | .hbm, ⟨5, _⟩ => ⟨S128x1, .f32⟩
  | .hbm, ⟨6, _⟩ => ⟨S1024x4096, .f32⟩
  | .hbm, ⟨7, _⟩ => ⟨S8x8, .i32⟩
  | .hbm, ⟨8, _⟩ => ⟨S8x8, .i32⟩
  | .hbm, ⟨9, _⟩ => ⟨S_, .i32⟩
  | .hbm, ⟨10, _⟩ => ⟨S8x8, .i32⟩
  | .hbm, ⟨11, _⟩ => ⟨S8x8, .i32⟩
  | .hbm, ⟨12, _⟩ => ⟨S8x8, .i1⟩
  | .hbm, ⟨13, _⟩ => ⟨S8x8, .f32⟩
  | .hbm, ⟨14, _⟩ => ⟨S128x128, .f32⟩
  | .hbm, ⟨15, _⟩ => ⟨S8x1x8x1, .f32⟩
  | .hbm, ⟨16, _⟩ => ⟨S1x128x1x128, .f32⟩
  | .hbm, ⟨17, _⟩ => ⟨S8x128x8x128, .f32⟩
  | .hbm, ⟨18, _⟩ => ⟨S8x128x8x128, .f32⟩
  | .hbm, ⟨19, _⟩ => ⟨S8x128x8x128, .f32⟩
  | .hbm, ⟨20, _⟩ => ⟨S1024x1024, .f32⟩
  | .hbm, ⟨21, _⟩ => ⟨S128x128, .f32⟩
  | .hbm, ⟨22, _⟩ => ⟨S8x1x8x1, .f32⟩
  | .hbm, ⟨23, _⟩ => ⟨S1x128x1x128, .f32⟩
  | .hbm, ⟨24, _⟩ => ⟨S8x128x8x128, .f32⟩
  | .hbm, ⟨25, _⟩ => ⟨S8x128x8x128, .f32⟩
  | .hbm, ⟨26, _⟩ => ⟨S8x128x8x128, .f32⟩
  | .hbm, ⟨27, _⟩ => ⟨S1024x1024, .f32⟩
  | .hbm, ⟨28, _⟩ => ⟨S1x1024, .f32⟩
  | .hbm, ⟨29, _⟩ => ⟨S128, .f32⟩
  | .hbm, ⟨30, _⟩ => ⟨S1x128, .f32⟩
  | .hbm, ⟨31, _⟩ => ⟨S8x128, .f32⟩
  | .hbm, ⟨32, _⟩ => ⟨S1024, .f32⟩
  | .hbm, ⟨33, _⟩ => ⟨S128, .f32⟩
  | .hbm, ⟨34, _⟩ => ⟨S1x128, .f32⟩
  | .hbm, ⟨35, _⟩ => ⟨S8x128, .f32⟩
  | .hbm, ⟨36, _⟩ => ⟨S1024, .f32⟩
  | .hbm, ⟨37, _⟩ => ⟨S8, .f32⟩
  | .hbm, ⟨38, _⟩ => ⟨S8x128, .f32⟩
  | .hbm, ⟨39, _⟩ => ⟨S1024, .f32⟩
  | .hbm, ⟨40, _⟩ => ⟨S1024x1, .f32⟩
  | .hbm, ⟨41, _⟩ => ⟨S1024x1, .f32⟩
  | .hbm, ⟨42, _⟩ => ⟨S1024x1, .f32⟩
  | .hbm, ⟨43, _⟩ => ⟨S1024x3, .f32⟩
  | .hbm, ⟨44, _⟩ => ⟨S1024x4096, .f32⟩
  | .hbm, ⟨45, _⟩ => ⟨S8x128x64x64, .f32⟩
  | .local _ .vmem, ⟨0, _⟩ => ⟨S1024x2048, .f32⟩
  | .local _ .vmem, ⟨1, _⟩ => ⟨S1024x2048, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x3, .f32⟩
  | .local _ .vmem, ⟨6, _⟩ => ⟨S1024x2048, .f32⟩
  | .local _ .vmem, ⟨7, _⟩ => ⟨S1024x2048, .f32⟩
  | _, _ => ⟨S8x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩
abbrev main_v9 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x128x64x64_S1024x4096 : S8x128x64x64.ShapeCasts S1024x4096
  bcast_S_S8x8 : S_.BroadcastsInDim S8x8 (![] : Fin 0 → Fin S8x8.rank)
  slices_S128x256_S128x128_0_0 : S128x256.Slices ![0, 0] S128x128
  bcast_S8x8_S8x1x8x1_0_2 : S8x8.BroadcastsInDim S8x1x8x1 (![0, 2] : Fin 2 → Fin S8x1x8x1.rank)
  bcast_S128x128_S1x128x1x128_1_3 : S128x128.BroadcastsInDim S1x128x1x128 (![1, 3] : Fin 2 → Fin S1x128x1x128.rank)
  bcast_S8x1x8x1_S8x128x8x128_0_1_2_3 : S8x1x8x1.BroadcastsInDim S8x128x8x128 (![0, 1, 2, 3] : Fin 4 → Fin S8x128x8x128.rank)
  bcast_S1x128x1x128_S8x128x8x128_0_1_2_3 : S1x128x1x128.BroadcastsInDim S8x128x8x128 (![0, 1, 2, 3] : Fin 4 → Fin S8x128x8x128.rank)
  shapeCasts_S8x128x8x128_S1024x1024 : S8x128x8x128.ShapeCasts S1024x1024
  slices_S128x256_S128x128_0_128 : S128x256.Slices ![0, 128] S128x128
  shapeCasts_S8x128_S1x1024 : S8x128.ShapeCasts S1x1024
  shapeCasts_S128x1_S128 : S128x1.ShapeCasts S128
  shapeCasts_S128_S1x128 : S128.ShapeCasts S1x128
  bcast_S1x128_S8x128_0_1 : S1x128.BroadcastsInDim S8x128 (![0, 1] : Fin 2 → Fin S8x128.rank)
  shapeCasts_S8x128_S1024 : S8x128.ShapeCasts S1024
  bcast_S8_S8x128_0 : S8.BroadcastsInDim S8x128 (![0] : Fin 1 → Fin S8x128.rank)
  bcast_S1024_S1024x1_0 : S1024.BroadcastsInDim S1024x1 (![0] : Fin 1 → Fin S1024x1.rank)
  concatenates_S1024x1_S1024x1_S1024x1_S1024x3_d1 : Shape.Concatenates [S1024x1, S1024x1, S1024x1] S1024x3 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  broadcasts_S1024x1_S1024x2048 : S1024x1.Broadcasts S1024x2048
  shapeCasts_S1024x4096_S8x128x64x64 : S1024x4096.ShapeCasts S8x128x64x64
  dot_S1024x1024_S1024x2048_S1024x2048_1_0_0_1_n_n_wf : DotDims.WF S1024x1024 S1024x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S1024x4096.size a
  hwx0_0 : ∀ i : grid0.Coords, EltTy.bits .f32 = 32 ∨ (Rect.block (s := S1024x4096) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x3.size a ≤ S1024x3.size a
  hwx0_4 : ∀ i : grid0.Coords, EltTy.bits .f32 = 32 ∨ (Rect.block (s := S1024x3) S1024x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x4096.size a
  hwx0_5 : ∀ i : grid0.Coords, EltTy.bits .f32 = 32 ∨ (Rect.block (s := S1024x4096) S1024x2048.size (cc0_transform_5 i) (hinb0_5 i)).WholeWords (EltTy.packing .f32)

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1024x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.KerFrameBits.lean ====
/-
  The frame run of the conditioned 1×1 convolution: its @main is fifteen layout-only host operations (a reshape of
  the image to [8, 128, 4096], the two halves of the weight, the labels as [8, 1, 128], and the three per-batch
  columns bias | tproj | t stacked into an [8, 128, 3] array), one region over a grid of 8 × 2 points, and a final
  reshape of the region's result. At a point (b, h) the body reads five staging buffers — the image slab of batch b
  and spatial half h, the two resident weights, batch b's label row and its three columns — and overwrites the whole
  of the sixth with one payload of them. So what the output's buffer holds after the body is a closed function of
  the five input blocks at the point (the canonical contents of that one covering store); every input's buffer
  holds its block at every point, fetched there or not (the resident weights only at the first point, the per-batch
  rows at the even points); and the region's invariant is just the untouched rest. From this proof data the
  library's frame run around a region gives: every weakly fair execution terminates without fault, the result array
  holds block by block what the points wrote back, and every other unscoped buffer is as the final reshape leaves
  it — in particular the six arguments, which no host operation writes, end as launched.
-/
import proofs.«110255_g2000405613621400_pallasbulk_266_2_alg».proof.Proof.Gen.Kernel.Launch
import proofs.«110255_g2000405613621400_pallasbulk_266_2_alg».proof.Proof.Gen.Kernel.Skeleton
import proofs.«110255_g2000405613621400_pallasbulk_266_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the launch memory after the fifteen host operations. -/
abbrev V0 (c : Dev nD) : Valuation τ sig (Elt F) := StableHlo.after (List.flatten [hostOps0]) (fun b => m (c, b))
/-- The same at a TensorCore reference. -/
abbrev V (c : Dev nD) (b : Ref sig .tc) : Buf (Elt F) ((c : Thread nD τ).loc b) := V0 m c (Proc.devRef .tc b)

/-- No host operation allocates: each writes a buffer of the signature. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the final reshape: it reduces to the region
    continued by the reshape, entered with the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The final reshape touches only the region's result array and a buffer that bypasses the region. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes none of the region's six arrays (it writes the program's result, which is none of them). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- An argument array is written by no host operation before the region: the region finds it as launched. -/
theorem V_arg (c : Dev nD) (a : Ref sig .tc)
    (ha : a = main_arg0 ∨ a = main_arg1 ∨ a = main_arg2 ∨ a = main_arg3 ∨ a = main_arg4 ∨ a = main_arg5) :
    V m c a = m ((c : Thread nD τ).loc a) :=
  StableHlo.after_of_forall_not_mem (b := Proc.devRef .tc a) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    rcases ha with rfl | rfl | rfl | rfl | rfl | rfl <;>
    · repeat' apply And.intro
      all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the pipeline fetched it there
    or not (not fetched means its block index has not moved since the point before), for any proof data over the
    arrays `V` whose body leaves the block in place. None of the five is cut or ever idle. -/

theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output's buffer -/

abbrev rX : Rect S1x128x2048 := Rect.unit (s := S1x128x2048) ![0, 0, 0] S1x128x2048.size inb_S1x128x2048_S1x128x2048_0_0_0
abbrev rW : Rect S128x128 := Rect.unit (s := S128x128) ![0, 0] S128x128.size inb_S128x128_S128x128_0_0
abbrev rL : Rect S1x1x128 := Rect.unit (s := S1x1x128) ![0, 0, 0] S1x1x128.size inb_S1x1x128_S1x1x128_0_0_0
abbrev rA : Rect S1x128x3 := Rect.unit (s := S1x128x3) ![0, 0, 0] S1x128x3.size inb_S1x128x3_S1x128x3_0_0_0

/-- The output's staging buffer after the body, from the five input blocks (the image slab `x0`, the convolution
    weight `x1`, the label weight `x2`, the label row `x3`, the three columns `x4`): its one store, of the whole
    buffer, of the body's payload. -/
def out0_5 (x0 : Vec F S1x128x2048 .f32) (x1 : Vec F S128x128 .f32) (x2 : Vec F S128x128 .f32) (x3 : Vec F S1x1x128 .f32) (x4 : Vec F S1x128x3 .f32) :
    Vec F S1x128x2048 .f32 :=
  View.canon [⟨rX, k0_pay1 (View.ld x2 rW) (View.ld x3 rL) (View.ld x4 rA) (View.ld x1 rW) (View.ld x0 rX)⟩]

/-- The one store covers the buffer. -/
theorem cover0_5 (p0 : Vec F S1x128x2048 .f32) (y : S1x128x2048.Idx) :
    ∃ pc ∈ ([⟨rX, p0⟩] : List (View.Piece (Elt F) S1x128x2048 .f32)), y ∈ pc.1.set :=
  View.cover_of_tiled [⟨rX, p0⟩] S1x128x2048.size (by rfl) y

/-! ## The body's triple -/

set_option maxHeartbeats 1000000 in
/-- The body on whole staging memrefs, the five inputs' at read contents `x0 … x4` and the output's at anything, runs
    to its continuation with the inputs' as they were and the output's at `out0_5` of them. -/
theorem sound_kernel (c : Dev nD) (E : Set ℕ) (i : grid0.Coords)
    (arg2 : Memref sig .tc .vmem S1x128x2048 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1x1x128 .f32) (harg5 : arg5.IsWhole)
    (arg6 : Memref sig .tc .vmem S1x128x3 .f32) (harg6 : arg6.IsWhole) (arg7 : Memref sig .tc .vmem S1x128x2048 .f32) (harg7 : arg7.IsWhole)
    (x0 : Vec F S1x128x2048 .f32) (x1 : Vec F S128x128 .f32) (x2 : Vec F S128x128 .f32) (x3 : Vec F S1x1x128 .f32) (x4 : Vec F S1x128x3 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 x0 x1 x2 x3 x4)) -∗ K ⟨⟩))
      ⊢ wp frame (wpE (defs₀ (F := F)) Variants.none c none) E (cc0__cond_conv_kernel i arg2 harg2 arg3 harg3 arg4 harg4 arg5 harg5 arg6 harg6 arg7 harg7) K := by
  simp only [cc0__cond_conv_kernel_eq_skeleton]; unfold cc0__cond_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The proof data -/

/-- The proof data of the pipeline on core `c`: the arrays as the region finds them; after the body at point `t` each
    input's buffer at its block and the output's at `out0_5` of the five blocks; the invariant the untouched rest;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- Its arrays are the region-entry contents (projected, never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before_in0 m (dats m 0 c) (A_eq m c 0) (after0_0 m c) t d
theorem before0_1 (c : Dev nD) (t : Fin cfg0.N) (d) : (dats m 0 c).before 1 t d = iblk m c 1 t :=
  before_in1 m (dats m 0 c) (A_eq m c 1) (after0_1 m c) t d
theorem before0_2 (c : Dev nD) (t : Fin cfg0.N) (d) : (dats m 0 c).before 2 t d = iblk m c 2 t :=
  before_in2 m (dats m 0 c) (A_eq m c 2) (after0_2 m c) t d
theorem before0_3 (c : Dev nD) (t : Fin cfg0.N) (d) : (dats m 0 c).before 3 t d = iblk m c 3 t :=
  before_in3 m (dats m 0 c) (A_eq m c 3) (after0_3 m c) t d
theorem before0_4 (c : Dev nD) (t : Fin cfg0.N) (d) : (dats m 0 c).before 4 t d = iblk m c 4 t :=
  before_in4 m (dats m 0 c) (A_eq m c 4) (after0_4 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates without fault; at the end each
    of the region's arrays holds what the library computes from the proof data (the result array: block by block what
    the points wrote back) and every other unscoped buffer is as the final reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The final reshape writes no argument array, and none is an array of the region: it ends as launched. -/
theorem W_arg (dats' : (p : Fin _) → (c : Dev nD) → Dat τ (Elt F) Unit ℕ (UR sig nD τ) ℕ (cfgs p) c) (c : Dev nD) (a : Ref sig .tc)
    (ha : a = main_arg0 ∨ a = main_arg1 ∨ a = main_arg2 ∨ a = main_arg3 ∨ a = main_arg4 ∨ a = main_arg5) :
    Pipeline.afterTail₀ cfgs dats' 0 (V0 m) [hostOps1] c a = m ((c : Thread nD τ).loc a) := by
  unfold Pipeline.afterTail₀
  rw [StableHlo.after_of_forall_not_mem (b := Proc.devRef .tc a) _ _ (List.forall_iff_forall_mem.mp (by
      simp only [hostOps1, List.flatten_cons, List.flatten_nil, List.append_nil, List.cons_append,
        List.nil_append, List.Forall, StableHlo.reshape_writes, Finset.mem_singleton]
      rcases ha with rfl | rfl | rfl | rfl | rfl | rfl <;> exact StableHlo.devRef_ne_of_ne (by decide))),
    Pipeline.withArrays_of_ne _ c (V0 m c) _ a (by
      rcases ha with rfl | rfl | rfl | rfl | rfl | rfl <;> decide)]
  exact V_arg m c a ha

/-- The frame: every weakly fair execution terminates without fault and the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (W_arg m (dats m) c main_arg0 (by simp)),
     ((h c).2 main_arg1 (Pipeline.mem_restRefs_of main_arg1 (by decide) (by decide))).trans (W_arg m (dats m) c main_arg1 (by simp)),
     ((h c).2 main_arg2 (Pipeline.mem_restRefs_of main_arg2 (by decide) (by decide))).trans (W_arg m (dats m) c main_arg2 (by simp)),
     ((h c).2 main_arg3 (Pipeline.mem_restRefs_of main_arg3 (by decide) (by decide))).trans (W_arg m (dats m) c main_arg3 (by simp)),
     ((h c).2 main_arg4 (Pipeline.mem_restRefs_of main_arg4 (by decide) (by decide))).trans (W_arg m (dats m) c main_arg4 (by simp)),
     ((h c).2 main_arg5 (Pipeline.mem_restRefs_of main_arg5 (by decide) (by decide))).trans (W_arg m (dats m) c main_arg5 (by simp))⟩)
    (run_main m ρ)

end Cert.Kernel.Fr

end
-- ==== Proof.KerFrame.lean ====
/-
  The frame run of the conditioned 1×1 convolution: its @main is fifteen layout-only host operations (a reshape of
  the image to [8, 128, 4096], the two halves of the weight, the labels as [8, 1, 128], and the three per-batch
  columns bias | tproj | t stacked into an [8, 128, 3] array), one region over a grid of 8 × 2 points, and a final
  reshape of the region's result. At a point (b, h) the body reads five staging buffers — the image slab of batch b
  and spatial half h, the two resident weights, batch b's label row and its three columns — and overwrites the whole
  of the sixth with one payload of them. So what the output's buffer holds after the body is a closed function of
  the five input blocks at the point (the canonical contents of that one covering store); every input's buffer
  holds its block at every point, fetched there or not (the resident weights only at the first point, the per-batch
  rows at the even points); and the region's invariant is just the untouched rest. From this proof data the
  library's frame run around a region gives: every weakly fair execution terminates without fault, the result array
  holds block by block what the points wrote back, and every other unscoped buffer is as the final reshape leaves
  it — in particular the six arguments, which no host operation writes, end as launched.
-/
import proofs.«110255_g2000405613621400_pallasbulk_266_2_alg».proof.Proof.Gen.KernelIdeal.Launch
import proofs.«110255_g2000405613621400_pallasbulk_266_2_alg».proof.Proof.Gen.KernelIdeal.Skeleton
import proofs.«110255_g2000405613621400_pallasbulk_266_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the launch memory after the fifteen host operations. -/
abbrev V0 (c : Dev nD) : Valuation τ sig (Elt F) := StableHlo.after (List.flatten [hostOps0]) (fun b => m (c, b))
/-- The same at a TensorCore reference. -/
abbrev V (c : Dev nD) (b : Ref sig .tc) : Buf (Elt F) ((c : Thread nD τ).loc b) := V0 m c (Proc.devRef .tc b)

/-- No host operation allocates: each writes a buffer of the signature. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the final reshape: it reduces to the region
    continued by the reshape, entered with the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The final reshape touches only the region's result array and a buffer that bypasses the region. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes none of the region's six arrays (it writes the program's result, which is none of them). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- An argument array is written by no host operation before the region: the region finds it as launched. -/
theorem V_arg (c : Dev nD) (a : Ref sig .tc)
    (ha : a = main_arg0 ∨ a = main_arg1 ∨ a = main_arg2 ∨ a = main_arg3 ∨ a = main_arg4 ∨ a = main_arg5) :
    V m c a = m ((c : Thread nD τ).loc a) :=
  StableHlo.after_of_forall_not_mem (b := Proc.devRef .tc a) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    rcases ha with rfl | rfl | rfl | rfl | rfl | rfl <;>
    · repeat' apply And.intro
      all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the pipeline fetched it there
    or not (not fetched means its block index has not moved since the point before), for any proof data over the
    arrays `V` whose body leaves the block in place. None of the five is cut or ever idle. -/

theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output's buffer -/

abbrev rX : Rect S1x128x2048 := Rect.unit (s := S1x128x2048) ![0, 0, 0] S1x128x2048.size inb_S1x128x2048_S1x128x2048_0_0_0
abbrev rW : Rect S128x128 := Rect.unit (s := S128x128) ![0, 0] S128x128.size inb_S128x128_S128x128_0_0
abbrev rL : Rect S1x1x128 := Rect.unit (s := S1x1x128) ![0, 0, 0] S1x1x128.size inb_S1x1x128_S1x1x128_0_0_0
abbrev rA : Rect S1x128x3 := Rect.unit (s := S1x128x3) ![0, 0, 0] S1x128x3.size inb_S1x128x3_S1x128x3_0_0_0

/-- The output's staging buffer after the body, from the five input blocks (the image slab `x0`, the convolution
    weight `x1`, the label weight `x2`, the label row `x3`, the three columns `x4`): its one store, of the whole
    buffer, of the body's payload. -/
def out0_5 (x0 : Vec F S1x128x2048 .f32) (x1 : Vec F S128x128 .f32) (x2 : Vec F S128x128 .f32) (x3 : Vec F S1x1x128 .f32) (x4 : Vec F S1x128x3 .f32) :
    Vec F S1x128x2048 .f32 :=
  View.canon [⟨rX, k0_pay1 (View.ld x2 rW) (View.ld x3 rL) (View.ld x4 rA) (View.ld x1 rW) (View.ld x0 rX)⟩]

/-- The one store covers the buffer. -/
theorem cover0_5 (p0 : Vec F S1x128x2048 .f32) (y : S1x128x2048.Idx) :
    ∃ pc ∈ ([⟨rX, p0⟩] : List (View.Piece (Elt F) S1x128x2048 .f32)), y ∈ pc.1.set :=
  View.cover_of_tiled [⟨rX, p0⟩] S1x128x2048.size (by rfl) y

/-! ## The body's triple -/

set_option maxHeartbeats 1000000 in
/-- The body on whole staging memrefs, the five inputs' at read contents `x0 … x4` and the output's at anything, runs
    to its continuation with the inputs' as they were and the output's at `out0_5` of them. -/
theorem sound_kernel (c : Dev nD) (E : Set ℕ) (i : grid0.Coords)
    (arg2 : Memref sig .tc .vmem S1x128x2048 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1x1x128 .f32) (harg5 : arg5.IsWhole)
    (arg6 : Memref sig .tc .vmem S1x128x3 .f32) (harg6 : arg6.IsWhole) (arg7 : Memref sig .tc .vmem S1x128x2048 .f32) (harg7 : arg7.IsWhole)
    (x0 : Vec F S1x128x2048 .f32) (x1 : Vec F S128x128 .f32) (x2 : Vec F S128x128 .f32) (x3 : Vec F S1x1x128 .f32) (x4 : Vec F S1x128x3 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 x0 x1 x2 x3 x4)) -∗ K ⟨⟩))
      ⊢ wp frame (wpE (defs₀ (F := F)) Variants.none c none) E (cc0__cond_conv_kernel i arg2 harg2 arg3 harg3 arg4 harg4 arg5 harg5 arg6 harg6 arg7 harg7) K := by
  simp only [cc0__cond_conv_kernel_eq_skeleton]; unfold cc0__cond_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The proof data -/

/-- The proof data of the pipeline on core `c`: the arrays as the region finds them; after the body at point `t` each
    input's buffer at its block and the output's at `out0_5` of the five blocks; the invariant the untouched rest;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- Its arrays are the region-entry contents (projected, never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before_in0 m (dats m 0 c) (A_eq m c 0) (after0_0 m c) t d
theorem before0_1 (c : Dev nD) (t : Fin cfg0.N) (d) : (dats m 0 c).before 1 t d = iblk m c 1 t :=
  before_in1 m (dats m 0 c) (A_eq m c 1) (after0_1 m c) t d
theorem before0_2 (c : Dev nD) (t : Fin cfg0.N) (d) : (dats m 0 c).before 2 t d = iblk m c 2 t :=
  before_in2 m (dats m 0 c) (A_eq m c 2) (after0_2 m c) t d
theorem before0_3 (c : Dev nD) (t : Fin cfg0.N) (d) : (dats m 0 c).before 3 t d = iblk m c 3 t :=
  before_in3 m (dats m 0 c) (A_eq m c 3) (after0_3 m c) t d
theorem before0_4 (c : Dev nD) (t : Fin cfg0.N) (d) : (dats m 0 c).before 4 t d = iblk m c 4 t :=
  before_in4 m (dats m 0 c) (A_eq m c 4) (after0_4 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates without fault; at the end each
    of the region's arrays holds what the library computes from the proof data (the result array: block by block what
    the points wrote back) and every other unscoped buffer is as the final reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The final reshape writes no argument array, and none is an array of the region: it ends as launched. -/
theorem W_arg (dats' : (p : Fin _) → (c : Dev nD) → Dat τ (Elt F) Unit ℕ (UR sig nD τ) ℕ (cfgs p) c) (c : Dev nD) (a : Ref sig .tc)
    (ha : a = main_arg0 ∨ a = main_arg1 ∨ a = main_arg2 ∨ a = main_arg3 ∨ a = main_arg4 ∨ a = main_arg5) :
    Pipeline.afterTail₀ cfgs dats' 0 (V0 m) [hostOps1] c a = m ((c : Thread nD τ).loc a) := by
  unfold Pipeline.afterTail₀
  rw [StableHlo.after_of_forall_not_mem (b := Proc.devRef .tc a) _ _ (List.forall_iff_forall_mem.mp (by
      simp only [hostOps1, List.flatten_cons, List.flatten_nil, List.append_nil, List.cons_append,
        List.nil_append, List.Forall, StableHlo.reshape_writes, Finset.mem_singleton]
      rcases ha with rfl | rfl | rfl | rfl | rfl | rfl <;> exact StableHlo.devRef_ne_of_ne (by decide))),
    Pipeline.withArrays_of_ne _ c (V0 m c) _ a (by
      rcases ha with rfl | rfl | rfl | rfl | rfl | rfl <;> decide)]
  exact V_arg m c a ha

/-- The frame: every weakly fair execution terminates without fault and the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (W_arg m (dats m) c main_arg0 (by simp)),
     ((h c).2 main_arg1 (Pipeline.mem_restRefs_of main_arg1 (by decide) (by decide))).trans (W_arg m (dats m) c main_arg1 (by simp)),
     ((h c).2 main_arg2 (Pipeline.mem_restRefs_of main_arg2 (by decide) (by decide))).trans (W_arg m (dats m) c main_arg2 (by simp)),
     ((h c).2 main_arg3 (Pipeline.mem_restRefs_of main_arg3 (by decide) (by decide))).trans (W_arg m (dats m) c main_arg3 (by simp)),
     ((h c).2 main_arg4 (Pipeline.mem_restRefs_of main_arg4 (by decide) (by decide))).trans (W_arg m (dats m) c main_arg4 (by simp)),
     ((h c).2 main_arg5 (Pipeline.mem_restRefs_of main_arg5 (by decide) (by decide))).trans (W_arg m (dats m) c main_arg5 (by simp))⟩)
    (run_main m ρ)

end Cert.KernelIdeal.Fr

end
-- ==== Proof.KerPayload.lean ====
import proofs.«110255_g2000405613621400_pallasbulk_266_2_alg».proof.Proof.Gen.KernelIdeal.Skeleton
import Idealize.ShloMosaic.Lib.ValueLayout
import Idealize.ShloMosaic.PureOps.Ideal.Laws

/-!
# The kernel body's stored value, read at an index

The body of the kernel stores one value: with `W` the weight block multiplied against the input block `x`,
`A` the second weight block, `l` the row of conditioning values and `e` the three side columns,
the value at `(0, o, s)` is

  `∑ c, W[o, c] · x[0, c, s]  +  (((∑ j, A[o, j] · l[0, 0, j]) + e[0, o, 0]) + e[0, o, 2] · e[0, o, 1])`.

Everything is read at the ideal values, where each float operation is the exact one on extended reals.
-/

noncomputable section

namespace Cert.KernelIdeal.Pay

open Idealize.ShloMosaic Idealize.ShloMosaic.ValueIdx Cert.KernelIdeal Cert.KernelIdeal.Gen
open scoped BigOperators

variable {α : Type}

/-! ## Two column forms of the layout operations -/

/-- An `[a]` array cast to the column `[a, 1]` reads, at `(i, u)`, the operand at `i`, whatever the unit
coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The non-pointwise operations of the body at an index -/

/-- The row sum: a `[128, 128]` array summed along its second axis reads, at `o`, the sum of row `o`. -/
theorem rowSum_apply (src : FVec Ideal S128x128 .f32) (h : S128x128.Reduces [1] S128) (hφ : FKind.Formats .f32)
    (hacc : (0x00000000#32 : BitVec 32) = 0x00000000#32) (o : Fin 128) :
    multiReduction (F := Ideal) .add [1] S128 src 0x00000000#32 h hφ hacc (ix1 o) = ∑ j : Fin 128, src (ix2 o j) := by
  refine (Ideal.multiReduction_add_single src 0x00000000#32 h hφ hacc (ix1 o)).trans ?_
  refine Finset.sum_congr rfl fun j _ => congrArg src ?_
  funext ax
  refine Fin.ext ?_
  match ax with
  | ⟨0, _⟩ => rfl
  | ⟨1, _⟩ => rfl

/-- The left operand's index of the block product: row from the output index … -/
theorem lhs_0 (i : S128x2048.Idx) (q : dot_S128x128_S128x2048_S128x2048_1_0_0_1_n_n.contr.Idx) :
    (dot_S128x128_S128x2048_S128x2048_1_0_0_1_n_n.lhsIdx i q 0).val = (i 0).val := by
  unfold DotDims.lhsIdx
  rw [dif_neg (show ¬(0 : Fin S128x128.rank) ∈ dot_S128x128_S128x2048_S128x2048_1_0_0_1_n_n.lhsBatch by decide),
    dif_pos (show (0 : Fin S128x128.rank) ∈ dot_S128x128_S128x2048_S128x2048_1_0_0_1_n_n.lhsNonContracting by decide)]
  rfl
/-- … column the contracted coordinate. -/
theorem lhs_1 (i : S128x2048.Idx) (q : dot_S128x128_S128x2048_S128x2048_1_0_0_1_n_n.contr.Idx) :
    (dot_S128x128_S128x2048_S128x2048_1_0_0_1_n_n.lhsIdx i q 1).val = (q ⟨0, by decide⟩).val :=
  dot_S128x128_S128x2048_S128x2048_1_0_0_1_n_n.lhsIdx_val_of_single rfl i q
/-- The right operand's index: row the contracted coordinate … -/
theorem rhs_0 (i : S128x2048.Idx) (q : dot_S128x128_S128x2048_S128x2048_1_0_0_1_n_n.contr.Idx) :
    (dot_S128x128_S128x2048_S128x2048_1_0_0_1_n_n.rhsIdx i q 0).val = (q ⟨0, by decide⟩).val :=
  dot_S128x128_S128x2048_S128x2048_1_0_0_1_n_n.rhsIdx_val_of_single rfl i q
/-- … column from the output index. -/
theorem rhs_1 (i : S128x2048.Idx) (q : dot_S128x128_S128x2048_S128x2048_1_0_0_1_n_n.contr.Idx) :
    (dot_S128x128_S128x2048_S128x2048_1_0_0_1_n_n.rhsIdx i q 1).val = (i 1).val := by
  unfold DotDims.rhsIdx
  rw [dif_neg (show ¬(1 : Fin S128x2048.rank) ∈ dot_S128x128_S128x2048_S128x2048_1_0_0_1_n_n.rhsBatch by decide),
    dif_pos (show (1 : Fin S128x2048.rank) ∈ dot_S128x128_S128x2048_S128x2048_1_0_0_1_n_n.rhsNonContracting by decide)]
  rfl

/-- The block product into a zero accumulator: at `(o, s)` the sum over the contracted coordinate. -/
theorem blockProduct_apply (lhs : FVec Ideal S128x128 .f32) (rhs : FVec Ideal S128x2048 .f32) (o : Fin 128) (s : Fin 2048) :
    matmul dot_S128x128_S128x2048_S128x2048_1_0_0_1_n_n none lhs rhs (constant (F := Ideal) S128x2048 .f32 0x00000000#32) (ix2 o s)
      = ∑ c : Fin 128, lhs (ix2 o c) * rhs (ix2 c s) := by
  simp only [matmul]
  rw [Ideal.matmul_constant_zero_apply,
    ← Equiv.sum_comp (contrEquiv1 dot_S128x128_S128x2048_S128x2048_1_0_0_1_n_n 128 rfl rfl).symm]
  refine Finset.sum_congr rfl fun k _ => ?_
  have hk := contrEquiv1_symm_val dot_S128x128_S128x2048_S128x2048_1_0_0_1_n_n 128 rfl rfl k
  have el : dot_S128x128_S128x2048_S128x2048_1_0_0_1_n_n.lhsIdx (ix2 o s)
      ((contrEquiv1 dot_S128x128_S128x2048_S128x2048_1_0_0_1_n_n 128 rfl rfl).symm k) = ix2 o k :=
    funext fun a => Fin.ext (by
      match a with
      | ⟨0, _⟩ => exact lhs_0 _ _
      | ⟨1, _⟩ => exact (lhs_1 _ _).trans hk)
  have er : dot_S128x128_S128x2048_S128x2048_1_0_0_1_n_n.rhsIdx (ix2 o s)
      ((contrEquiv1 dot_S128x128_S128x2048_S128x2048_1_0_0_1_n_n 128 rfl rfl).symm k) = ix2 k s :=
    funext fun a => Fin.ext (by
      match a with
      | ⟨0, _⟩ => exact (rhs_0 _ _).trans hk
      | ⟨1, _⟩ => exact rhs_1 _ _)
  rw [el, er]

/-! ## The stored value at an index -/

/-- The value the body stores, at `(0, o, s)`. -/
theorem k0_pay1_apply (v0 v16 : Vec Ideal S128x128 .f32) (v2 : Vec Ideal S1x1x128 .f32) (v8 : Vec Ideal S1x128x3 .f32)
    (v18 : Vec Ideal S1x128x2048 .f32) (o : Fin 128) (s : Fin 2048) :
    Gen.k0_pay1 v0 v2 v8 v16 v18 (ix3 (0 : Fin 1) o s)
      = (∑ c : Fin 128, v16 (ix2 o c) * v18 (ix3 (0 : Fin 1) c s))
        + (((∑ j : Fin 128, v0 (ix2 o j) * v2 (ix3 (0 : Fin 1) (0 : Fin 1) j)) + v8 (ix3 (0 : Fin 1) o (0 : Fin 3)))
          + v8 (ix3 (0 : Fin 1) o (2 : Fin 3)) * v8 (ix3 (0 : Fin 1) o (1 : Fin 3))) := by
  unfold Gen.k0_pay1
  rw [shapeCast_ab_1ab_apply, addf_apply, blockProduct_apply, broadcastTo_a1_ab_apply, addf_apply, addf_apply, mulf_apply,
    shapeCast_a_a1_apply, rowSum_apply]
  rw [slice2_axis1_apply 0 _ _ o (0 : Fin 1) (0 : Fin 3) rfl, slice2_axis1_apply 2 _ _ o (0 : Fin 1) (2 : Fin 3) rfl,
    slice2_axis1_apply 1 _ _ o (0 : Fin 1) (1 : Fin 3) rfl]
  simp only [shapeCast_self, mulf_apply, broadcastTo_1b_ab_apply, shapeCast_1ab_ab_apply]

end Cert.KernelIdeal.Pay

end
-- ==== Proof.KerValue.lean ====
/-
  What the conditioned 1×1 convolution's result array holds after the run, as one function of the five arrays the
  region reads. Point (b, h) of the grid writes back the block [b, 0:128, 2048h : 2048h+2048] of the region's
  result, and that block is the body's payload of the five input blocks at the point: the image slab
  [b, :, 2048h : 2048h+2048], the two whole weights, row b of the labels and the three columns of batch b. Read at
  an element (b, o, s) the payload is the dot product of row o of the convolution weight with column s of the slab,
  plus the conditioning scalar of (b, o): the dot product of row o of the label weight with the label row, plus the
  bias column, plus the product of the timestep column and the projection column. The sixteen blocks tile the
  array, so the whole array is that function; the final reshape of @main then only renames the index.
-/
import proofs.«110255_g2000405613621400_pallasbulk_266_2_alg».proof.Proof.KerFrame
import proofs.«110255_g2000405613621400_pallasbulk_266_2_alg».proof.Proof.KerPayload
import Idealize.ShloMosaic.Lib.Pipeline.Value
import Idealize.ShloMosaic.Lib.StableHlo.Run
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- One element of the region's result from the five arrays the region reads: the image as [8, 128, 4096], the
    convolution weight, the label weight, the labels as [8, 1, 128] and the stacked columns [8, 128, 3]. -/
def elem (a0 : S8x128x4096.Idx → EReal) (a1 a2 : S128x128.Idx → EReal) (a3 : S8x1x128.Idx → EReal) (a4 : S8x128x3.Idx → EReal)
    (b : Fin 8) (o : Fin 128) (s : Fin 4096) : EReal :=
  (∑ c : Fin 128, a1 (ix2 o c) * a0 (ix3 b c s))
    + (((∑ j : Fin 128, a2 (ix2 o j) * a3 (ix3 b (0 : Fin 1) j)) + a4 (ix3 b o (0 : Fin 3))) + a4 (ix3 b o (2 : Fin 3)) * a4 (ix3 b o (1 : Fin 3)))

/-- The region's whole result array as that function of its index. -/
def Gk (a0 : S8x128x4096.Idx → EReal) (a1 a2 : S128x128.Idx → EReal) (a3 : S8x1x128.Idx → EReal) (a4 : S8x128x3.Idx → EReal) :
    S8x128x4096.Idx → EReal :=
  fun i => elem a0 a1 a2 a3 a4 (i 0) (i 1) (i 2)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the image slab moves with the output block, the weights stay, the label row
    and the columns follow the output's batch coordinate; the output's block index is (b, 0, h). -/
theorem idx_facts : ∀ t : Fin cfg0.N,
    win0_0.index t (0 : Fin 3) = win0_5.index t (0 : Fin 3) ∧ win0_0.index t (1 : Fin 3) = 0 ∧ win0_0.index t (2 : Fin 3) = win0_5.index t (2 : Fin 3)
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = win0_5.index t (0 : Fin 3) ∧ win0_3.index t (1 : Fin 3) = 0 ∧ win0_3.index t (2 : Fin 3) = 0
    ∧ win0_4.index t (0 : Fin 3) = win0_5.index t (0 : Fin 3) ∧ win0_4.index t (1 : Fin 3) = 0 ∧ win0_4.index t (2 : Fin 3) = 0
    ∧ win0_5.index t (0 : Fin 3) ≤ 7 ∧ win0_5.index t (1 : Fin 3) = 0 ∧ win0_5.index t (2 : Fin 3) ≤ 1 :=
  (by decide +kernel : ∀ t : Fin grid0.N, _)

/-- Every block (b, 0, h) is some point's. -/
theorem idx_onto : ∀ (q0 : Fin 8) (q2 : Fin 2), ∃ t : Fin cfg0.N, win0_5.index t = ![q0.val, 0, q2.val] :=
  (by decide +kernel : ∀ (q0 : Fin 8) (q2 : Fin 2), ∃ t : Fin grid0.N, win0_5.index t = ![q0.val, 0, q2.val])

/-- The payload of blocks that are the restrictions of five arrays to the blocks of point (b, h) is the element
    (b, o, 2048 h + s) of the whole-array function. -/
theorem point_eq (x0 : Vec Ideal S1x128x2048 .f32) (x1 x2 : Vec Ideal S128x128 .f32) (x3 : Vec Ideal S1x1x128 .f32) (x4 : Vec Ideal S1x128x3 .f32)
    (a0 : S8x128x4096.Idx → EReal) (a1 a2 : S128x128.Idx → EReal) (a3 : S8x1x128.Idx → EReal) (a4 : S8x128x3.Idx → EReal)
    (b : Fin 8) (h : Fin 2) (o : Fin 128) (s : Fin 2048)
    (h0 : ∀ (cc : Fin 128) (s' : Fin 2048), x0 (ix3 (0 : Fin 1) cc s') = a0 (ix3 b cc ⟨h.val * 2048 + s'.val, by omega⟩))
    (h1 : ∀ (o' cc : Fin 128), x1 (ix2 o' cc) = a1 (ix2 o' cc)) (h2 : ∀ (o' jj : Fin 128), x2 (ix2 o' jj) = a2 (ix2 o' jj))
    (h3 : ∀ jj : Fin 128, x3 (ix3 (0 : Fin 1) (0 : Fin 1) jj) = a3 (ix3 b (0 : Fin 1) jj))
    (h4 : ∀ (o' : Fin 128) (k : Fin 3), x4 (ix3 (0 : Fin 1) o' k) = a4 (ix3 b o' k)) :
    k0_pay1 x2 x3 x4 x1 x0 (ix3 (0 : Fin 1) o s) = elem a0 a1 a2 a3 a4 b o ⟨h.val * 2048 + s.val, by omega⟩ := by
  rw [Cert.KernelIdeal.Pay.k0_pay1_apply]
  unfold elem
  simp only [h0, h1, h2, h3, h4]

theorem flushed_eq (c : Dev nD) (t : Fin cfg0.N) :
    (dats m 0 c).flushed 5 t = ((cfg0.win 5).blk t).view.read (Elt Ideal)
      (Gk (V m c main_v0) (V m c main_v1) (V m c main_v2) (V m c main_v3) (V m c main_v14)) := by
  show (cfg0.win 5).cut (grid0.coords t) ((dats m 0 c).after 5 t) = _
  rw [after0_5]
  unfold out0_5
  rw [View.canon_unit_zero hz3]
  simp only [View.ld_unit_zero (S := S1x128x2048) hz3, View.ld_unit_zero (S := S1x1x128) hz3, View.ld_unit_zero (S := S1x128x3) hz3, View.ld_unit_zero (S := S128x128) hz2]
  funext j
  obtain ⟨z, o, s, rfl⟩ : ∃ (z : Fin 1) (o : Fin 128) (s : Fin 2048), j = ix3 z o s := ⟨j 0, j 1, j 2, eq_ix3 j⟩
  obtain rfl : z = 0 := Subsingleton.elim _ _
  obtain ⟨e00, e01, e02, e10, e11, e20, e21, e30, e31, e32, e40, e41, e42, hb, e51, hh⟩ := idx_facts t
  show k0_pay1 (iblk m c 2 t) (iblk m c 3 t) (iblk m c 4 t) (iblk m c 1 t) (iblk m c 0 t) (ix3 (0 : Fin 1) o s)
    = Gk (V m c main_v0) (V m c main_v1) (V m c main_v2) (V m c main_v3) (V m c main_v14) (((cfg0.win 5).blk t).view.emb (ix3 (0 : Fin 1) o s))
  refine (point_eq (iblk m c 0 t) (iblk m c 1 t) (iblk m c 2 t) (iblk m c 3 t) (iblk m c 4 t)
    (V m c main_v0) (V m c main_v1) (V m c main_v2) (V m c main_v3) (V m c main_v14)
    ⟨win0_5.index t (0 : Fin 3), by omega⟩ ⟨win0_5.index t (2 : Fin 3), by omega⟩ o s ?_ ?_ ?_ ?_ ?_).trans ?_
  · intro cc s'
    show V m c main_v0 (((cfg0.win 0).blk t).view.emb (ix3 (0 : Fin 1) cc s')) = _
    refine congrArg _ (funext fun a => Fin.ext ?_)
    match a with
    | ⟨0, _⟩ => show win0_0.index t (0 : Fin 3) * 1 + 1 * 0 = win0_5.index t (0 : Fin 3); omega
    | ⟨1, _⟩ => show win0_0.index t (1 : Fin 3) * 128 + 1 * cc.val = cc.val; omega
    | ⟨2, _⟩ => show win0_0.index t (2 : Fin 3) * 2048 + 1 * s'.val = win0_5.index t (2 : Fin 3) * 2048 + s'.val; omega
  · intro o' cc
    show V m c main_v1 (((cfg0.win 1).blk t).view.emb (ix2 o' cc)) = _
    refine congrArg _ (funext fun a => Fin.ext ?_)
    match a with
    | ⟨0, _⟩ => show win0_1.index t (0 : Fin 2) * 128 + 1 * o'.val = o'.val; omega
    | ⟨1, _⟩ => show win0_1.index t (1 : Fin 2) * 128 + 1 * cc.val = cc.val; omega
  · intro o' cc
    show V m c main_v2 (((cfg0.win 2).blk t).view.emb (ix2 o' cc)) = _
    refine congrArg _ (funext fun a => Fin.ext ?_)
    match a with
    | ⟨0, _⟩ => show win0_2.index t (0 : Fin 2) * 128 + 1 * o'.val = o'.val; omega
    | ⟨1, _⟩ => show win0_2.index t (1 : Fin 2) * 128 + 1 * cc.val = cc.val; omega
  · intro jj
    show V m c main_v3 (((cfg0.win 3).blk t).view.emb (ix3 (0 : Fin 1) (0 : Fin 1) jj)) = _
    refine congrArg _ (funext fun a => Fin.ext ?_)
    match a with
    | ⟨0, _⟩ => show win0_3.index t (0 : Fin 3) * 1 + 1 * 0 = win0_5.index t (0 : Fin 3); omega
    | ⟨1, _⟩ => show win0_3.index t (1 : Fin 3) * 1 + 1 * 0 = 0; omega
    | ⟨2, _⟩ => show win0_3.index t (2 : Fin 3) * 128 + 1 * jj.val = jj.val; omega
  · intro o' k
    show V m c main_v14 (((cfg0.win 4).blk t).view.emb (ix3 (0 : Fin 1) o' k)) = _
    refine congrArg _ (funext fun a => Fin.ext ?_)
    match a with
    | ⟨0, _⟩ => show win0_4.index t (0 : Fin 3) * 1 + 1 * 0 = win0_5.index t (0 : Fin 3); omega
    | ⟨1, _⟩ => show win0_4.index t (1 : Fin 3) * 128 + 1 * o'.val = o'.val; omega
    | ⟨2, _⟩ => show win0_4.index t (2 : Fin 3) * 3 + 1 * k.val = k.val; omega
  · unfold Gk
    congr 1 <;> refine Fin.ext ?_
    · show win0_5.index t (0 : Fin 3) = win0_5.index t (0 : Fin 3) * 1 + 1 * 0; omega
    · show o.val = win0_5.index t (1 : Fin 3) * 128 + 1 * o.val; omega
    · show win0_5.index t (2 : Fin 3) * 2048 + s.val = win0_5.index t (2 : Fin 3) * 2048 + 1 * s.val; omega

/-- An index of the result array is in point `t`'s block iff each coordinate is in the block's range on its axis. -/
theorem mem_blk (t : Fin cfg0.N) (i : S8x128x4096.Idx) :
    i ∈ ((cfg0.win 5).blk t).view.set ↔ ∀ a : Fin 3, win0_5.index t a * S1x128x2048.size a ≤ (i a).val ∧ (i a).val < win0_5.index t a * S1x128x2048.size a + S1x128x2048.size a := by
  show i ∈ ((View.whole main_v15).slice (win0_5.rect t)).set ↔ _
  rw [View.set_slice_whole, Rect.mem_set_unit]
  exact Iff.rfl

/-- The sixteen blocks tile the array: the element (b, o, s) lies in the block of the point with block index (b, 0, s / 2048). -/
theorem cover (i : S8x128x4096.Idx) : ∃ t : Fin cfg0.N, (cfg0.win 5).flush t = true ∧ i ∈ ((cfg0.win 5).blk t).view.set := by
  have hi0 : (i 0).val < 8 := (i 0).isLt
  have hi1 : (i 1).val < 128 := (i 1).isLt
  have hi2 : (i 2).val < 4096 := (i 2).isLt
  obtain ⟨t, ht⟩ := idx_onto ⟨(i 0).val, hi0⟩ ⟨(i 2).val / 2048, by omega⟩
  have q0 : win0_5.index t (0 : Fin 3) = (i 0).val := congrFun ht 0
  have q1 : win0_5.index t (1 : Fin 3) = 0 := congrFun ht 1
  have q2 : win0_5.index t (2 : Fin 3) = (i 2).val / 2048 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 128 ≤ (i 1).val ∧ (i 1).val < win0_5.index t (1 : Fin 3) * 128 + 128; omega
  | ⟨2, _⟩ => show win0_5.index t (2 : Fin 3) * 2048 ≤ (i 2).val ∧ (i 2).val < win0_5.index t (2 : Fin 3) * 2048 + 2048; omega

/-- The region's result array after the run is the whole-array function of the five arrays the region read. -/
theorem final (c : Dev nD) : (dats m 0 c).arrAt 5 cfg0.N
    = Gk (V m c main_v0) (V m c main_v1) (V m c main_v2) (V m c main_v3) (V m c main_v14) :=
  (dats m 0 c).arrAt_eq_of_cover 5 _ (fun t _ => flushed_eq m c t) cover

/-! ## The final reshape and the run -/

/-- The program's result as @main's last line leaves it: the region's result array, relaid as [8, 128, 64, 64]. -/
def res (c : Dev nD) : S8x128x64x64.Idx → EReal :=
  shapeCast S8x128x64x64 (Gk (V m c main_v0) (V m c main_v1) (V m c main_v2) (V m c main_v3) (V m c main_v14)) shapeCasts_S8x128x4096_S8x128x64x64

/-- After the region the one remaining host operation writes the result buffer with the reshape of the region's
    result array, which the run left at the whole-array function. -/
theorem tail_v16 (c : Dev nD) : Pipeline.afterTail₀ cfgs (dats m) 0 (V0 m) [hostOps1] c main_v16 = res m c := by
  unfold Pipeline.afterTail₀
  show StableHlo.after (hostOps1 (F := Ideal)) _ (Proc.devRef .tc main_v16) = _
  after_results
  have e := (Pipeline.withArrays_arr spec0 launch0.win.arr_inj c (V0 m c) (fun w => (dats m 0 c).arrAt w cfg0.N) 5).trans (final m c)
  funext i
  exact congrArg (fun X : S8x128x4096.Idx → EReal => shapeCast S8x128x64x64 X shapeCasts_S8x128x4096_S8x128x64x64 i) e

/-- The run, read: every weakly fair execution terminates without fault, the result buffer holds `res`, and the six
    arguments end as launched. -/
theorem run : θ_run defs (onTc (τ := τ) (main (F := Ideal))) ⟨m, fun _ => 0, ρ⟩ (fun r => ∀ c : Dev nD,
      r.2.mem ((c.tc : Thread nD τ).loc main_v16) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v16 (Pipeline.mem_restRefs_of main_v16 (by decide) (by decide))).trans (tail_v16 m c),
     ((h c).2 main_arg0 (Pipeline.mem_restRefs_of main_arg0 (by decide) (by decide))).trans (W_arg m (dats m) c main_arg0 (by simp)),
     ((h c).2 main_arg1 (Pipeline.mem_restRefs_of main_arg1 (by decide) (by decide))).trans (W_arg m (dats m) c main_arg1 (by simp)),
     ((h c).2 main_arg2 (Pipeline.mem_restRefs_of main_arg2 (by decide) (by decide))).trans (W_arg m (dats m) c main_arg2 (by simp)),
     ((h c).2 main_arg3 (Pipeline.mem_restRefs_of main_arg3 (by decide) (by decide))).trans (W_arg m (dats m) c main_arg3 (by simp)),
     ((h c).2 main_arg4 (Pipeline.mem_restRefs_of main_arg4 (by decide) (by decide))).trans (W_arg m (dats m) c main_arg4 (by simp)),
     ((h c).2 main_arg5 (Pipeline.mem_restRefs_of main_arg5 (by decide) (by decide))).trans (W_arg m (dats m) c main_arg5 (by simp))⟩)
    (run_main (F := Ideal) m ρ)

end Cert.KernelIdeal.Val

end
-- ==== Proof.KerHost.lean ====
import proofs.«110255_g2000405613621400_pallasbulk_266_2_alg».proof.Proof.Gen.KernelIdeal.Launch
import Idealize.ShloMosaic.Lib.ValueLayout

/-!
# What the host operations before the kernel call leave in its operand arrays

Before the call the program reshapes the input `[8, 128, 64, 64]` to `[8, 128, 4096]`, cuts the weight matrix
`[128, 256]` into its left and right halves, reshapes the conditioning rows `[8, 128]` to `[8, 1, 128]`, and builds
the `[8, 128, 3]` array of side columns: column 0 the first bias column, column 1 the second, column 2 the step
number of the batch entry converted to a float. Each of the five arrays is read here at an index, as a function of
the argument arrays.
-/

noncomputable section

namespace Cert.KernelIdeal.HostVal

open Idealize.ShloMosaic Idealize.ShloMosaic.ValueIdx Idealize.ShloMosaic.TcCoe Cert.KernelIdeal Cert.KernelIdeal.Gen

/-! ## General forms -/

section General
variable {α : Type}

/-- An operation over a literal family of three references: its result with each operand's contents at its own
reference. -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- Three `[a, b, 1]` arrays laid side by side along the last axis: column 0 of the result is the first … -/
theorem concat3_col0 {a b : ℕ} (x0 x1 x2 : (⟨3, ![a, b, 1]⟩ : Shape).Idx → α)
    (h : Shape.Concatenates [⟨3, ![a, b, 1]⟩, ⟨3, ![a, b, 1]⟩, ⟨3, ![a, b, 1]⟩] ⟨3, ![a, b, 3]⟩ 2) (p : Fin a) (q : Fin b) :
    concatenate ⟨3, ![a, b, 3]⟩ 2 [⟨⟨3, ![a, b, 1]⟩, x0⟩, ⟨⟨3, ![a, b, 1]⟩, x1⟩, ⟨⟨3, ![a, b, 1]⟩, x2⟩] h (ix3 p q (0 : Fin 3))
      = x0 (ix3 p q (0 : Fin 1)) := by
  have h' : Shape.Concatenates (([⟨⟨3, ![a, b, 1]⟩, x0⟩, ⟨⟨3, ![a, b, 1]⟩, x1⟩, ⟨⟨3, ![a, b, 1]⟩, x2⟩] :
      List ((s : Shape) × (s.Idx → α))).map (·.1)) ⟨3, ![a, b, 3]⟩ (2 : Fin 3) := h
  exact concatenate_apply_piece (t := ⟨3, ![a, b, 3]⟩) (2 : Fin 3) _ h' (ix3 p q (0 : Fin 3)) 0 (by show 0 < 3; omega)
    ⟨3, ![a, b, 1]⟩ x0 rfl rfl 0 rfl (ix3 p q (0 : Fin 1))
    (fun ax hne => by
      match ax with
      | ⟨0, _⟩ => rfl
      | ⟨1, _⟩ => rfl
      | ⟨2, _⟩ => exact absurd rfl hne) rfl

/-- … column 1 the second … -/
theorem concat3_col1 {a b : ℕ} (x0 x1 x2 : (⟨3, ![a, b, 1]⟩ : Shape).Idx → α)
    (h : Shape.Concatenates [⟨3, ![a, b, 1]⟩, ⟨3, ![a, b, 1]⟩, ⟨3, ![a, b, 1]⟩] ⟨3, ![a, b, 3]⟩ 2) (p : Fin a) (q : Fin b) :
    concatenate ⟨3, ![a, b, 3]⟩ 2 [⟨⟨3, ![a, b, 1]⟩, x0⟩, ⟨⟨3, ![a, b, 1]⟩, x1⟩, ⟨⟨3, ![a, b, 1]⟩, x2⟩] h (ix3 p q (1 : Fin 3))
      = x1 (ix3 p q (0 : Fin 1)) := by
  have h' : Shape.Concatenates (([⟨⟨3, ![a, b, 1]⟩, x0⟩, ⟨⟨3, ![a, b, 1]⟩, x1⟩, ⟨⟨3, ![a, b, 1]⟩, x2⟩] :
      List ((s : Shape) × (s.Idx → α))).map (·.1)) ⟨3, ![a, b, 3]⟩ (2 : Fin 3) := h
  exact concatenate_apply_piece (t := ⟨3, ![a, b, 3]⟩) (2 : Fin 3) _ h' (ix3 p q (1 : Fin 3)) 1 (by show 1 < 3; omega)
    ⟨3, ![a, b, 1]⟩ x1 rfl rfl 1 rfl (ix3 p q (0 : Fin 1))
    (fun ax hne => by
      match ax with
      | ⟨0, _⟩ => rfl
      | ⟨1, _⟩ => rfl
      | ⟨2, _⟩ => exact absurd rfl hne) rfl

/-- … and column 2 the third. -/
theorem concat3_col2 {a b : ℕ} (x0 x1 x2 : (⟨3, ![a, b, 1]⟩ : Shape).Idx → α)
    (h : Shape.Concatenates [⟨3, ![a, b, 1]⟩, ⟨3, ![a, b, 1]⟩, ⟨3, ![a, b, 1]⟩] ⟨3, ![a, b, 3]⟩ 2) (p : Fin a) (q : Fin b) :
    concatenate ⟨3, ![a, b, 3]⟩ 2 [⟨⟨3, ![a, b, 1]⟩, x0⟩, ⟨⟨3, ![a, b, 1]⟩, x1⟩, ⟨⟨3, ![a, b, 1]⟩, x2⟩] h (ix3 p q (2 : Fin 3))
      = x2 (ix3 p q (0 : Fin 1)) := by
  have h' : Shape.Concatenates (([⟨⟨3, ![a, b, 1]⟩, x0⟩, ⟨⟨3, ![a, b, 1]⟩, x1⟩, ⟨⟨3, ![a, b, 1]⟩, x2⟩] :
      List ((s : Shape) × (s.Idx → α))).map (·.1)) ⟨3, ![a, b, 3]⟩ (2 : Fin 3) := h
  exact concatenate_apply_piece (t := ⟨3, ![a, b, 3]⟩) (2 : Fin 3) _ h' (ix3 p q (2 : Fin 3)) 2 (by show 2 < 3; omega)
    ⟨3, ![a, b, 1]⟩ x2 rfl rfl 2 rfl (ix3 p q (0 : Fin 1))
    (fun ax hne => by
      match ax with
      | ⟨0, _⟩ => rfl
      | ⟨1, _⟩ => rfl
      | ⟨2, _⟩ => exact absurd rfl hne) rfl

/-- A column `[128, 1]` laid as a row, repeated over the 8 batch entries and given a trailing unit axis: at
`(b, o, u)` the column's entry `o`. -/
theorem biasColumn_apply (x : S128x1.Idx → α) (b : Fin 8) (o : Fin 128) (u : Fin 1) :
    broadcastInDim S8x128x1 ![0, 1] bcast_S8x128_S8x128x1_0_1
        (broadcastInDim S8x128 ![0, 1] bcast_S1x128_S8x128_0_1 (shapeCast S1x128 x shapeCasts_S128x1_S1x128)) (ix3 b o u)
      = x (ix2 o (0 : Fin 1)) := by
  refine (broadcastInDim_apply _ _ _ (ix3 b o u) (ix2 b o) fun ax => ?_).trans ?_
  · match ax with
    | ⟨0, _⟩ => rfl
    | ⟨1, _⟩ => rfl
  refine (broadcastInDim_apply _ _ _ (ix2 b o) (ix2 (0 : Fin 1) o) fun ax => ?_).trans ?_
  · match ax with
    | ⟨0, _⟩ => rfl
    | ⟨1, _⟩ => rfl
  refine shapeCast_apply x _ (ix2 (0 : Fin 1) o) (ix2 o (0 : Fin 1)) ?_
  rw [Shape.rowMajor_val_two, Shape.rowMajor_val_two]
  show o.val * 1 + 0 = 0 * 128 + o.val
  omega

/-- A vector `[8]` laid as a column, repeated along 128 channels and given a trailing unit axis: at `(b, o, u)`
the vector's entry `b`. -/
theorem stepColumn_apply (x : S8.Idx → α) (b : Fin 8) (o : Fin 128) (u : Fin 1) :
    broadcastInDim S8x128x1 ![0, 1] bcast_S8x128_S8x128x1_0_1
        (broadcastInDim S8x128 ![0, 1] bcast_S8x1_S8x128_0_1 (shapeCast S8x1 x shapeCasts_S8_S8x1)) (ix3 b o u)
      = x (ix1 b) := by
  refine (broadcastInDim_apply _ _ _ (ix3 b o u) (ix2 b o) fun ax => ?_).trans ?_
  · match ax with
    | ⟨0, _⟩ => rfl
    | ⟨1, _⟩ => rfl
  refine (broadcastInDim_apply _ _ _ (ix2 b o) (ix2 b (0 : Fin 1)) fun ax => ?_).trans ?_
  · match ax with
    | ⟨0, _⟩ => rfl
    | ⟨1, _⟩ => rfl
  refine shapeCast_apply x _ (ix2 b (0 : Fin 1)) (ix1 b) ?_
  rw [Shape.rowMajor_val_one, Shape.rowMajor_val_two]
  show b.val = b.val * 1 + 0
  omega

end General

/-! ## The five operand arrays as terms over the argument arrays -/

variable (m : (ℓ : Loc nD τ sig) → Buf (Elt Ideal) ℓ) (c : Dev nD)

/-- The input, reshaped. -/
theorem v0_term :
    (StableHlo.after (List.flatten [Gen.hostOps0]) (fun b => m (c, b)) (Proc.devRef .tc main_v0) : S8x128x4096.Idx → EReal)
      = shapeCast S8x128x4096 (m ((c.tc : Thread nD τ).loc main_arg0)) shapeCasts_S8x128x64x64_S8x128x4096 := by
  simp only [Gen.hostOps0, List.flatten_cons, List.flatten_nil, List.append_nil]
  after_results
  rfl

/-- The weight matrix's left half. -/
theorem v1_term :
    (StableHlo.after (List.flatten [Gen.hostOps0]) (fun b => m (c, b)) (Proc.devRef .tc main_v1) : S128x128.Idx → EReal)
      = extractStridedSlice S128x128 ![0, 0] (m ((c.tc : Thread nD τ).loc main_arg3)) slices_S128x256_S128x128_0_0 := by
  simp only [Gen.hostOps0, List.flatten_cons, List.flatten_nil, List.append_nil]
  after_results

/-- The weight matrix's right half. -/
theorem v2_term :
    (StableHlo.after (List.flatten [Gen.hostOps0]) (fun b => m (c, b)) (Proc.devRef .tc main_v2) : S128x128.Idx → EReal)
      = extractStridedSlice S128x128 ![0, 128] (m ((c.tc : Thread nD τ).loc main_arg3)) slices_S128x256_S128x128_0_128 := by
  simp only [Gen.hostOps0, List.flatten_cons, List.flatten_nil, List.append_nil]
  after_results

/-- The conditioning rows, reshaped. -/
theorem v3_term :
    (StableHlo.after (List.flatten [Gen.hostOps0]) (fun b => m (c, b)) (Proc.devRef .tc main_v3) : S8x1x128.Idx → EReal)
      = shapeCast S8x1x128 (m ((c.tc : Thread nD τ).loc main_arg2)) shapeCasts_S8x128_S8x1x128 := by
  simp only [Gen.hostOps0, List.flatten_cons, List.flatten_nil, List.append_nil]
  after_results
  rfl

/-- The three side columns, side by side. -/
theorem v14_term :
    (StableHlo.after (List.flatten [Gen.hostOps0]) (fun b => m (c, b)) (Proc.devRef .tc main_v14) : S8x128x3.Idx → EReal)
      = concatenate S8x128x3 2
          [⟨S8x128x1, broadcastInDim S8x128x1 ![0, 1] bcast_S8x128_S8x128x1_0_1
              (broadcastInDim S8x128 ![0, 1] bcast_S1x128_S8x128_0_1
                (shapeCast S1x128 (m ((c.tc : Thread nD τ).loc main_arg4)) shapeCasts_S128x1_S1x128))⟩,
           ⟨S8x128x1, broadcastInDim S8x128x1 ![0, 1] bcast_S8x128_S8x128x1_0_1
              (broadcastInDim S8x128 ![0, 1] bcast_S1x128_S8x128_0_1
                (shapeCast S1x128 (m ((c.tc : Thread nD τ).loc main_arg5)) shapeCasts_S128x1_S1x128))⟩,
           ⟨S8x128x1, broadcastInDim S8x128x1 ![0, 1] bcast_S8x128_S8x128x1_0_1
              (broadcastInDim S8x128 ![0, 1] bcast_S8x1_S8x128_0_1
                (shapeCast S8x1 (sitofp (F := Ideal) .f32 (m ((c.tc : Thread nD τ).loc main_arg1))) shapeCasts_S8_S8x1))⟩]
          concatenates_S8x128x1_S8x128x1_S8x128x1_S8x128x3_d2 := by
  simp only [Gen.hostOps0, List.flatten_cons, List.flatten_nil, List.append_nil, StableHlo.after_cons, StableHlo.after_nil]
  rw [nary3_result]
  repeat (first
    | rw [StableHlo.unary_result] | rw [StableHlo.reshape_result]
    | (rw [StableHlo.unary_result_ne]; rotate_left; decide)
    | (rw [StableHlo.reshape_result_ne]; rotate_left; decide))
  rfl

/-! ## The five operand arrays at an index -/

/-- The reshaped input at `(b, ch, s)` is the input at `(b, ch, s / 64, s % 64)`. -/
theorem v0_apply (b : Fin 8) (ch : Fin 128) (s : Fin 4096) :
    (StableHlo.after (List.flatten [Gen.hostOps0]) (fun r => m (c, r)) (Proc.devRef .tc main_v0) : S8x128x4096.Idx → EReal) (ix3 b ch s)
      = (m ((c.tc : Thread nD τ).loc main_arg0) : S8x128x64x64.Idx → EReal)
          (ix4 b ch (⟨s.val / 64, by omega⟩ : Fin 64) (⟨s.val % 64, by omega⟩ : Fin 64)) := by
  rw [v0_term]
  refine shapeCast_apply (s := S8x128x64x64) (t := S8x128x4096) _ _ _ _ ?_
  rw [Shape.rowMajor_val_four, Shape.rowMajor_val_three]
  show ((b.val * 128 + ch.val) * 64 + s.val / 64) * 64 + s.val % 64 = (b.val * 128 + ch.val) * 4096 + s.val
  omega

/-- The left half of the weight matrix at `(o, k)` is the matrix at `(o, k)`. -/
theorem v1_apply (o k : Fin 128) :
    (StableHlo.after (List.flatten [Gen.hostOps0]) (fun r => m (c, r)) (Proc.devRef .tc main_v1) : S128x128.Idx → EReal) (ix2 o k)
      = (m ((c.tc : Thread nD τ).loc main_arg3) : S128x256.Idx → EReal) (ix2 o (⟨k.val, by omega⟩ : Fin 256)) := by
  rw [v1_term]
  exact slice2_axis1_apply 0 _ _ o k _ (Nat.zero_add _).symm

/-- The right half of the weight matrix at `(o, j)` is the matrix at `(o, 128 + j)`. -/
theorem v2_apply (o j : Fin 128) :
    (StableHlo.after (List.flatten [Gen.hostOps0]) (fun r => m (c, r)) (Proc.devRef .tc main_v2) : S128x128.Idx → EReal) (ix2 o j)
      = (m ((c.tc : Thread nD τ).loc main_arg3) : S128x256.Idx → EReal) (ix2 o (⟨128 + j.val, by omega⟩ : Fin 256)) := by
  rw [v2_term]
  exact slice2_axis1_apply 128 _ _ o j _ rfl

/-- The reshaped conditioning rows at `(b, 0, j)` are the rows at `(b, j)`. -/
theorem v3_apply (b : Fin 8) (j : Fin 128) :
    (StableHlo.after (List.flatten [Gen.hostOps0]) (fun r => m (c, r)) (Proc.devRef .tc main_v3) : S8x1x128.Idx → EReal) (ix3 b (0 : Fin 1) j)
      = (m ((c.tc : Thread nD τ).loc main_arg2) : S8x128.Idx → EReal) (ix2 b j) := by
  rw [v3_term]
  refine shapeCast_apply (s := S8x128) (t := S8x1x128) _ _ _ _ ?_
  rw [Shape.rowMajor_val_two, Shape.rowMajor_val_three]
  show b.val * 128 + j.val = (b.val * 1 + 0) * 128 + j.val
  omega

/-- Side column 0 at `(b, o)` is the first bias column at `o`. -/
theorem v14_apply0 (b : Fin 8) (o : Fin 128) :
    (StableHlo.after (List.flatten [Gen.hostOps0]) (fun r => m (c, r)) (Proc.devRef .tc main_v14) : S8x128x3.Idx → EReal) (ix3 b o (0 : Fin 3))
      = (m ((c.tc : Thread nD τ).loc main_arg4) : S128x1.Idx → EReal) (ix2 o (0 : Fin 1)) := by
  rw [v14_term]
  exact (concat3_col0 _ _ _ _ b o).trans (biasColumn_apply _ b o 0)

/-- Side column 1 at `(b, o)` is the second bias column at `o`. -/
theorem v14_apply1 (b : Fin 8) (o : Fin 128) :
    (StableHlo.after (List.flatten [Gen.hostOps0]) (fun r => m (c, r)) (Proc.devRef .tc main_v14) : S8x128x3.Idx → EReal) (ix3 b o (1 : Fin 3))
      = (m ((c.tc : Thread nD τ).loc main_arg5) : S128x1.Idx → EReal) (ix2 o (0 : Fin 1)) := by
  rw [v14_term]
  exact (concat3_col1 _ _ _ _ b o).trans (biasColumn_apply _ b o 0)

/-- Side column 2 at `(b, o)` is the step number of batch entry `b`, converted to a float. -/
theorem v14_apply2 (b : Fin 8) (o : Fin 128) :
    (StableHlo.after (List.flatten [Gen.hostOps0]) (fun r => m (c, r)) (Proc.devRef .tc main_v14) : S8x128x3.Idx → EReal) (ix3 b o (2 : Fin 3))
      = (sitofp (F := Ideal) .f32 (m ((c.tc : Thread nD τ).loc main_arg1)) : S8.Idx → EReal) (ix1 b) := by
  rw [v14_term]
  exact (concat3_col2 _ _ _ _ b o).trans (stepColumn_apply _ b o 0)

end Cert.KernelIdeal.HostVal

end
-- ==== Proof.LibTailReshape.lean ====
import Idealize.ShloMosaic.Lib.ValueLayout

/-!
# A reshape that splits the last axis in two, read at an index

A row-major array whose last axis has extent `p * q` reshaped so that this axis becomes two axes of extents `p` and
`q` keeps every element at the same row-major position: the element at `(…, y, x)` of the result is the element at
`(…, y * q + x)` of the operand. Two forms are read here at an index given by coordinates: the operand of rank 3
`[a, b, p * q]`, and the operand of rank 2 `[a * b, p * q]` whose first axis is split as well; both into `[a, b, p, q]`.
-/

namespace Idealize.ShloMosaic.TailReshape

open Idealize.ShloMosaic Idealize.ShloMosaic.ValueIdx

variable {α : Type}

/-- An `[a, b, n]` array with `n = p * q` cast to `[a, b, p, q]` reads, at `(i, j, y, x)`, the operand at `(i, j, k)`
with `k = y * q + x`. -/
theorem shapeCast_abn_abpq_apply {a b n p q : ℕ} (hn : n = p * q) (v : (⟨3, ![a, b, n]⟩ : Shape).Idx → α)
    (h : (⟨3, ![a, b, n]⟩ : Shape).ShapeCasts ⟨4, ![a, b, p, q]⟩) (i : Fin a) (j : Fin b) (y : Fin p) (x : Fin q)
    (k : Fin n) (hk : k.val = y.val * q + x.val) :
    shapeCast ⟨4, ![a, b, p, q]⟩ v h (ix4 i j y x) = v (ix3 i j k) :=
  shapeCast_apply v h _ _ (by
    rw [Shape.rowMajor_val_three, Shape.rowMajor_val_four]
    show (i.val * b + j.val) * n + k.val = ((i.val * b + j.val) * p + y.val) * q + x.val
    rw [hk, hn]; ring)

/-- An `[r, n]` array with `r = a * b` and `n = p * q` cast to `[a, b, p, q]` reads, at `(i, j, y, x)`, the operand at
`(k₁, k₂)` with `k₁ = i * b + j` and `k₂ = y * q + x`. -/
theorem shapeCast_rn_abpq_apply {a b r n p q : ℕ} (hn : n = p * q) (v : (⟨2, ![r, n]⟩ : Shape).Idx → α)
    (h : (⟨2, ![r, n]⟩ : Shape).ShapeCasts ⟨4, ![a, b, p, q]⟩) (i : Fin a) (j : Fin b) (y : Fin p) (x : Fin q)
    (k₁ : Fin r) (k₂ : Fin n) (hk₁ : k₁.val = i.val * b + j.val) (hk₂ : k₂.val = y.val * q + x.val) :
    shapeCast ⟨4, ![a, b, p, q]⟩ v h (ix4 i j y x) = v (ix2 k₁ k₂) :=
  shapeCast_apply v h _ _ (by
    rw [Shape.rowMajor_val_two, Shape.rowMajor_val_four]
    show k₁.val * n + k₂.val = ((i.val * b + j.val) * p + y.val) * q + x.val
    rw [hk₁, hk₂, hn]; ring)

/-- The first form at the extents `[8, 128, 4096]` into `[8, 128, 64, 64]`, the operand's last coordinate written out:
the form `rw` and `simp only` can use. -/
theorem shapeCast_8x128x4096_8x128x64x64_eq (v : (⟨3, ![8, 128, 4096]⟩ : Shape).Idx → α)
    (h : (⟨3, ![8, 128, 4096]⟩ : Shape).ShapeCasts ⟨4, ![8, 128, 64, 64]⟩) (b : Fin 8) (o : Fin 128) (y x : Fin 64) :
    shapeCast ⟨4, ![8, 128, 64, 64]⟩ v h (ix4 b o y x) = v (ix3 b o ⟨y.val * 64 + x.val, by omega⟩) :=
  shapeCast_abn_abpq_apply rfl v h b o y x _ rfl

/-- The second form at the extents `[1024, 4096]` into `[8, 128, 64, 64]`, the operand's two coordinates written out. -/
theorem shapeCast_1024x4096_8x128x64x64_eq (v : (⟨2, ![1024, 4096]⟩ : Shape).Idx → α)
    (h : (⟨2, ![1024, 4096]⟩ : Shape).ShapeCasts ⟨4, ![8, 128, 64, 64]⟩) (b : Fin 8) (o : Fin 128) (y x : Fin 64) :
    shapeCast ⟨4, ![8, 128, 64, 64]⟩ v h (ix4 b o y x)
      = v (ix2 ⟨b.val * 128 + o.val, by omega⟩ ⟨y.val * 64 + x.val, by omega⟩) :=
  shapeCast_rn_abpq_apply rfl v h b o y x _ _ rfl rfl

end Idealize.ShloMosaic.TailReshape
-- ==== Proof.Spec.lean ====
/-
  The function both programs compute, on the extended reals: a 1×1 convolution over channels plus a conditioning
  scalar per (batch, output channel). With the weight w : [128, 256] split into its convolution half (columns 0–127)
  and its label half (columns 128–255),

    out[b, o, y, x] = Σ_c w[o, c] · img[b, c, y, x] + ((Σ_j w[o, 128 + j] · lab[b, j] + bias[o]) + t[b] · tproj[o]).

  The timestep enters already converted to a float vector.
-/
import Idealize.ShloMosaic.Lib.ValueIdx

noncomputable section

namespace Cert.Spec

open Idealize.ShloMosaic Idealize.ShloMosaic.ValueIdx
open scoped BigOperators

/-- The conditioning scalar of batch `b` and output channel `o`. -/
def cond (tf : (⟨1, ![8]⟩ : Shape).Idx → EReal) (lab : (⟨2, ![8, 128]⟩ : Shape).Idx → EReal) (w : (⟨2, ![128, 256]⟩ : Shape).Idx → EReal)
    (bias tproj : (⟨2, ![128, 1]⟩ : Shape).Idx → EReal) (b : Fin 8) (o : Fin 128) : EReal :=
  ((∑ j : Fin 128, w (ix2 o (⟨128 + j.val, by omega⟩ : Fin 256)) * lab (ix2 b j)) + bias (ix2 o (0 : Fin 1)))
    + tf (ix1 b) * tproj (ix2 o (0 : Fin 1))

/-- One element of the result. -/
def elt (img : (⟨4, ![8, 128, 64, 64]⟩ : Shape).Idx → EReal) (tf : (⟨1, ![8]⟩ : Shape).Idx → EReal)
    (lab : (⟨2, ![8, 128]⟩ : Shape).Idx → EReal) (w : (⟨2, ![128, 256]⟩ : Shape).Idx → EReal)
    (bias tproj : (⟨2, ![128, 1]⟩ : Shape).Idx → EReal) (b : Fin 8) (o : Fin 128) (y x : Fin 64) : EReal :=
  (∑ c : Fin 128, w (ix2 o (⟨c.val, by omega⟩ : Fin 256)) * img (ix4 b c y x)) + cond tf lab w bias tproj b o

/-- The whole result array. -/
def out (img : (⟨4, ![8, 128, 64, 64]⟩ : Shape).Idx → EReal) (tf : (⟨1, ![8]⟩ : Shape).Idx → EReal)
    (lab : (⟨2, ![8, 128]⟩ : Shape).Idx → EReal) (w : (⟨2, ![128, 256]⟩ : Shape).Idx → EReal)
    (bias tproj : (⟨2, ![128, 1]⟩ : Shape).Idx → EReal) : (⟨4, ![8, 128, 64, 64]⟩ : Shape).Idx → EReal :=
  fun i => elt img tf lab w bias tproj (i 0) (i 1) (i 2) (i 3)

end Cert.Spec

end
-- ==== Proof.KerBridge.lean ====
/-
  The kernel's result is the common function of the arguments. The five arrays the region reads are re-layings of
  the arguments — the image with its two pixel axes fused, the two halves of the weight, the labels with a unit axis,
  and the three columns bias | tproj | t of each batch — so an element of the region's result, read through the final
  reshape (pixel (y, x) sits at position 64 y + x of the fused axis), is term by term the element of `Cert.Spec.out`.
-/
import proofs.«110255_g2000405613621400_pallasbulk_266_2_alg».proof.Proof.KerValue
import proofs.«110255_g2000405613621400_pallasbulk_266_2_alg».proof.Proof.KerHost
import proofs.«110255_g2000405613621400_pallasbulk_266_2_alg».proof.Proof.LibTailReshape
import proofs.«110255_g2000405613621400_pallasbulk_266_2_alg».proof.Proof.Spec

set_option maxRecDepth 16384

noncomputable section

namespace Cert.KernelIdeal.Bridge

open Cert.KernelIdeal Cert.KernelIdeal.Gen Cert.KernelIdeal.Fr Cert.KernelIdeal.Val
open Idealize.ShloMosaic Idealize.ShloMosaic.TcCoe Idealize.SL.Sem Idealize.ShloMosaic.ValueIdx
open scoped BigOperators

/-- An element of the region's result from arrays that are the stated re-layings of the arguments is the element of
    the common function. -/
theorem elem_eq_spec (a0 : S8x128x4096.Idx → EReal) (a1 a2 : S128x128.Idx → EReal) (a3 : S8x1x128.Idx → EReal) (a4 : S8x128x3.Idx → EReal)
    (img : (⟨4, ![8, 128, 64, 64]⟩ : Shape).Idx → EReal) (tf : (⟨1, ![8]⟩ : Shape).Idx → EReal)
    (lab : (⟨2, ![8, 128]⟩ : Shape).Idx → EReal) (w : (⟨2, ![128, 256]⟩ : Shape).Idx → EReal)
    (bias tproj : (⟨2, ![128, 1]⟩ : Shape).Idx → EReal)
    (h0 : ∀ (b : Fin 8) (ch : Fin 128) (s : Fin 4096), a0 (ix3 b ch s) = img (ix4 b ch (⟨s.val / 64, by omega⟩ : Fin 64) (⟨s.val % 64, by omega⟩ : Fin 64)))
    (h1 : ∀ (o c : Fin 128), a1 (ix2 o c) = w (ix2 o (⟨c.val, by omega⟩ : Fin 256)))
    (h2 : ∀ (o j : Fin 128), a2 (ix2 o j) = w (ix2 o (⟨128 + j.val, by omega⟩ : Fin 256)))
    (h3 : ∀ (b : Fin 8) (j : Fin 128), a3 (ix3 b (0 : Fin 1) j) = lab (ix2 b j))
    (h40 : ∀ (b : Fin 8) (o : Fin 128), a4 (ix3 b o (0 : Fin 3)) = bias (ix2 o (0 : Fin 1)))
    (h41 : ∀ (b : Fin 8) (o : Fin 128), a4 (ix3 b o (1 : Fin 3)) = tproj (ix2 o (0 : Fin 1)))
    (h42 : ∀ (b : Fin 8) (o : Fin 128), a4 (ix3 b o (2 : Fin 3)) = tf (ix1 b))
    (b : Fin 8) (o : Fin 128) (y x : Fin 64) :
    elem a0 a1 a2 a3 a4 b o (⟨y.val * 64 + x.val, by omega⟩ : Fin 4096) = Cert.Spec.elt img tf lab w bias tproj b o y x := by
  unfold elem Cert.Spec.elt Cert.Spec.cond
  simp only [h0, h1, h2, h3, h40, h41, h42]
  have hy : (⟨(y.val * 64 + x.val) / 64, by omega⟩ : Fin 64) = y := Fin.ext (by show (y.val * 64 + x.val) / 64 = y.val; omega)
  have hx : (⟨(y.val * 64 + x.val) % 64, by omega⟩ : Fin 64) = x := Fin.ext (by show (y.val * 64 + x.val) % 64 = x.val; omega)
  simp only [hy, hx]

/-- The kernel's result buffer is the common function of the six arguments (the timestep converted to a float vector). -/
theorem res_eq (m : (ℓ : Loc nD τ sig) → Buf (Elt Ideal) ℓ) (c : Dev nD) :
    res m c = Cert.Spec.out (m ((c.tc : Thread nD τ).loc main_arg0)) (sitofp (F := Ideal) .f32 (m ((c.tc : Thread nD τ).loc main_arg1)))
      (m ((c.tc : Thread nD τ).loc main_arg2)) (m ((c.tc : Thread nD τ).loc main_arg3))
      (m ((c.tc : Thread nD τ).loc main_arg4)) (m ((c.tc : Thread nD τ).loc main_arg5)) := by
  funext i
  obtain ⟨b, o, y, x, rfl⟩ : ∃ (b : Fin 8) (o : Fin 128) (y x : Fin 64), i = ix4 b o y x := ⟨i 0, i 1, i 2, i 3, eq_ix4 i⟩
  unfold res
  rw [Idealize.ShloMosaic.TailReshape.shapeCast_8x128x4096_8x128x64x64_eq]
  exact elem_eq_spec _ _ _ _ _ _ _ _ _ _ _ (Cert.KernelIdeal.HostVal.v0_apply m c) (Cert.KernelIdeal.HostVal.v1_apply m c)
    (Cert.KernelIdeal.HostVal.v2_apply m c) (Cert.KernelIdeal.HostVal.v3_apply m c) (Cert.KernelIdeal.HostVal.v14_apply0 m c)
    (Cert.KernelIdeal.HostVal.v14_apply1 m c) (Cert.KernelIdeal.HostVal.v14_apply2 m c) b o y x

end Cert.KernelIdeal.Bridge

end
-- ==== Proof.RefFrame.lean ====
import proofs.«110255_g2000405613621400_pallasbulk_266_2_alg».proof.Proof.Gen.ReferenceIdeal.Launch
import proofs.«110255_g2000405613621400_pallasbulk_266_2_alg».proof.Proof.Gen.ReferenceIdeal.Skeleton
import proofs.«110255_g2000405613621400_pallasbulk_266_2_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

/-!
# The reference program runs to its end and leaves its six arguments alone

The reference's `@main` is: a stretch of host operations that build the two block-diagonal matrices
`kron(I₈, ·)` (each by a call of `@kron`), the flattened inputs and the three-column side table; ONE grid
region of two points, each point multiplying a 1024×1024 block-diagonal matrix into a 1024×2048 column
block and adding a per-row term; and one closing reshape. This module proves, for any float
interpretation `F`, that every fair execution terminates without fault, describes what each array of the
region holds at the end, and concludes that the argument arrays are unchanged.

Six windows: 0–4 are inputs (0 moves with the grid point, 1–4 are whole arrays fetched once), 5 is the
output, written back at both points.
-/

-- membership of an index in a 1024×2048 rectangle is decided by structural recursion, one step per coordinate
set_option maxRecDepth 16384

noncomputable section

namespace Cert.ReferenceIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the region -/

/-- What core `c`'s buffers hold when the region starts: the launch memory pushed through the five stretches
    of host operations that precede it, in order. -/
abbrev V0 (c : Dev nD) : Valuation τ sig (Elt F) :=
  StableHlo.after (List.flatten [hostOps0, hostOps0_1, hostOps0_2, hostOps0_3, hostOps0_4]) (fun b => m (c, b))
/-- The same contents, read at a TensorCore reference. -/
abbrev V (c : Dev nD) (b : Ref sig .tc) : Buf (Elt F) ((c : Thread nD τ).loc b) := V0 m c (Proc.devRef .tc b)

/-- None of the host operations allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- `@main` is: five stretches of host operations, the region, one more stretch. So running it is running the
    region from the contents `V`, continued by the last stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩)
    main_chain

/-! ## The closing stretch -/

/-- The closing reshape reads the region's output array and writes a buffer the region never sees: both are unscoped
    TensorCore buffers, hence among those a line after the region may touch. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- Its one result buffer is none of the six arrays the region stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;>
    exact StableHlo.devRef_ne_of_ne (by decide)

/-! ## The argument arrays are written by no host operation

Every host operation writes exactly one buffer, its result, and no result buffer is an argument. So an argument
array holds its launch contents when the region starts, and again after the closing reshape. -/

/-- Closes `∀ op ∈ (the host prefix), b ∉ op.writes` for a literal reference `b` that is no operation's result: the list is
    spelt out, each operation's written set is the singleton of its result, and the references differ by evaluation. -/
local macro "prefix_keeps" : tactic => `(tactic| (
  simp only [hostOps0, hostOps0_1, hostOps0_2, hostOps0_3, hostOps0_4, List.flatten_cons, List.flatten_nil, List.append_nil,
    List.cons_append, List.nil_append, List.Forall, StableHlo.nullary_writes, StableHlo.unary_writes, StableHlo.binary_writes,
    StableHlo.reshape_writes, StableHlo.nary_writes, Finset.mem_singleton]
  repeat' apply And.intro
  all_goals exact StableHlo.devRef_ne_of_ne (by decide)))

/-- The same for the closing stretch. -/
local macro "suffix_keeps" : tactic => `(tactic| (
  simp only [hostOps1, List.flatten_cons, List.flatten_nil, List.append_nil, List.cons_append, List.nil_append, List.Forall,
    StableHlo.reshape_writes, Finset.mem_singleton]
  repeat' apply And.intro
  all_goals exact StableHlo.devRef_ne_of_ne (by decide)))

theorem V_main_arg0 (c : Dev nD) : V m c main_arg0 = m ((c : Thread nD τ).loc main_arg0) :=
  StableHlo.after_of_forall_not_mem (b := Proc.devRef .tc main_arg0) _ _ (List.forall_iff_forall_mem.mp (by prefix_keeps))
theorem V_main_arg1 (c : Dev nD) : V m c main_arg1 = m ((c : Thread nD τ).loc main_arg1) :=
  StableHlo.after_of_forall_not_mem (b := Proc.devRef .tc main_arg1) _ _ (List.forall_iff_forall_mem.mp (by prefix_keeps))
theorem V_main_arg2 (c : Dev nD) : V m c main_arg2 = m ((c : Thread nD τ).loc main_arg2) :=
  StableHlo.after_of_forall_not_mem (b := Proc.devRef .tc main_arg2) _ _ (List.forall_iff_forall_mem.mp (by prefix_keeps))
theorem V_main_arg3 (c : Dev nD) : V m c main_arg3 = m ((c : Thread nD τ).loc main_arg3) :=
  StableHlo.after_of_forall_not_mem (b := Proc.devRef .tc main_arg3) _ _ (List.forall_iff_forall_mem.mp (by prefix_keeps))
theorem V_main_arg4 (c : Dev nD) : V m c main_arg4 = m ((c : Thread nD τ).loc main_arg4) :=
  StableHlo.after_of_forall_not_mem (b := Proc.devRef .tc main_arg4) _ _ (List.forall_iff_forall_mem.mp (by prefix_keeps))
theorem V_main_arg5 (c : Dev nD) : V m c main_arg5 = m ((c : Thread nD τ).loc main_arg5) :=
  StableHlo.after_of_forall_not_mem (b := Proc.devRef .tc main_arg5) _ _ (List.forall_iff_forall_mem.mp (by prefix_keeps))

/-- After the closing stretch, a buffer that is neither its result nor an array of the region holds what it held when
    the region started. Stated once for any such reference; the six arguments are instances. -/
theorem afterTail_of_untouched (dats : (p : Fin _) → (c : Dev nD) → Dat τ (Elt F) Unit ℕ (UR sig nD τ) ℕ (cfgs p) c) (c : Dev nD)
    (b : Ref sig .tc) (hb : ∀ op ∈ List.flatten [(hostOps1 : List (HloOp τ sig (Elt F)))], Proc.devRef .tc b ∉ op.writes)
    (harr : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ hb,
    Pipeline.withArrays_of_ne _ c (V0 m c) _ b harr]

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (afterTail_of_untouched m dats c main_arg0 (List.forall_iff_forall_mem.mp (by suffix_keeps)) (by decide)).trans (V_main_arg0 m c)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (afterTail_of_untouched m dats c main_arg1 (List.forall_iff_forall_mem.mp (by suffix_keeps)) (by decide)).trans (V_main_arg1 m c)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (afterTail_of_untouched m dats c main_arg2 (List.forall_iff_forall_mem.mp (by suffix_keeps)) (by decide)).trans (V_main_arg2 m c)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (afterTail_of_untouched m dats c main_arg3 (List.forall_iff_forall_mem.mp (by suffix_keeps)) (by decide)).trans (V_main_arg3 m c)
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (afterTail_of_untouched m dats c main_arg4 (List.forall_iff_forall_mem.mp (by suffix_keeps)) (by decide)).trans (V_main_arg4 m c)
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  (afterTail_of_untouched m dats c main_arg5 (List.forall_iff_forall_mem.mp (by suffix_keeps)) (by decide)).trans (V_main_arg5 m c)

/-! ## What the region's windows hold -/

/-- The block of window `w` at grid point `t`, cut out of the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds the window's block at EVERY point, also at a point where nothing was
fetched into it: there the block index is the one of the point before, and the body left the block in place. This is the
library's `Dat.before_in_eq_fetched`; it asks that the window is an input, never idle, uncut, and that the body keeps the
block. Window 0 moves with the grid point and is fetched at both points; windows 1–4 have a constant index and are
fetched at the first point only — the same lemma covers both. Stated for any proof data over `V` whose `after` of the
window is the block. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## From the run's postcondition to the unchanged arguments -/

/-- None of the six argument arrays is staged by a window (the windows stage buffers the host prefix computed), so the
    run's postcondition speaks of each of them through its second clause: it holds what the closing stretch leaves, which is
    its launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c)⟩) h

/-! ## The body's accesses

Every load and the one store of the body go through the whole of a staging buffer: a unit-stride rectangle at offset zero
of the buffer's own extents. -/

abbrev r0_0 : Rect S1024x2048 := Rect.unit (s := S1024x2048) ![0, 0] S1024x2048.size inb_S1024x2048_S1024x2048_0_0
abbrev r0_1 : Rect S1024x1024 := Rect.unit (s := S1024x1024) ![0, 0] S1024x1024.size inb_S1024x1024_S1024x1024_0_0
abbrev r0_3 : Rect S1x1024 := Rect.unit (s := S1x1024) ![0, 0] S1x1024.size inb_S1x1024_S1x1024_0_0
abbrev r0_4 : Rect S1024x3 := Rect.unit (s := S1024x3) ![0, 0] S1024x3.size inb_S1024x3_S1024x3_0_0

/-! ## What the body leaves in the output's staging buffer -/

/-- The body stores once, through the whole buffer, the value `k0_pay1` of its five loads. The payload takes the loads in
    the order the body makes them — window 2 (the first block-diagonal matrix), window 3 (the flattened row), window 4
    (the three-column table), window 1 (the second block-diagonal matrix), window 0 (the column block) —, so with
    `xW` the contents of window `W`'s buffer the stored value is `k0_pay1 x2 x3 x4 x1 x0` read through the load rectangles.
    As a function of the buffer's index this is the canonical contents of that single piece. -/
def out0_5 (x0 : Vec F S1024x2048 .f32) (x1 : Vec F S1024x1024 .f32) (x2 : Vec F S1024x1024 .f32) (x3 : Vec F S1x1024 .f32)
    (x4 : Vec F S1024x3 .f32) : Vec F S1024x2048 .f32 :=
  View.canon [⟨r0_0, k0_pay1 (View.ld x2 r0_1) (View.ld x3 r0_3) (View.ld x4 r0_4) (View.ld x1 r0_1) (View.ld x0 r0_0)⟩]

/-- The one piece is the whole buffer, so every index lies in it. -/
theorem cover0_5 (p0 : Vec F S1024x2048 .f32) (y : S1024x2048.Idx) :
    ∃ pc ∈ ([⟨r0_0, p0⟩] : List (View.Piece (Elt F) S1024x2048 .f32)), y ∈ pc.1.set :=
  View.cover_of_tiled [⟨r0_0, p0⟩] S1024x2048.size (by rfl) y

/-! ## The body's triple -/

set_option maxHeartbeats 1000000 in
/-- The body, run on six whole staging buffers — the five inputs' holding `x0 … x4`, the output's holding anything —,
    reaches its continuation with the inputs' buffers as they were and the output's at `out0_5 x0 … x4`. The body also
    LOADS the output's buffer before it stores (the loaded value is not used): the buffer's prior contents are therefore
    named by a witness before the run, and overwritten whole by the store. -/
theorem sound_kernel (c : Dev nD) (E : Set ℕ) (i : grid0.Coords)
    (arg1 : Memref sig .tc .vmem S1024x2048 .f32) (harg1 : arg1.IsWhole) (arg2 : Memref sig .tc .vmem S1024x1024 .f32) (harg2 : arg2.IsWhole)
    (arg3 : Memref sig .tc .vmem S1024x1024 .f32) (harg3 : arg3.IsWhole) (arg4 : Memref sig .tc .vmem S1x1024 .f32) (harg4 : arg4.IsWhole)
    (arg5 : Memref sig .tc .vmem S1024x3 .f32) (harg5 : arg5.IsWhole) (arg6 : Memref sig .tc .vmem S1024x2048 .f32) (harg6 : arg6.IsWhole)
    (x0 : Vec F S1024x2048 .f32) (x1 : Vec F S1024x1024 .f32) (x2 : Vec F S1024x1024 .f32) (x3 : Vec F S1x1024 .f32) (x4 : Vec F S1024x3 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__cond_unet_kernel i arg1 harg1 arg2 harg2 arg3 harg3 arg4 harg4 arg5 harg5 arg6 harg6) K := by
  simp only [cc0__cond_unet_kernel_eq_skeleton]; unfold cc0__cond_unet_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The proof data of the region -/

/-- For core `c`: the arrays are the contents `V` the region starts from; after the body at point `t` each input's buffer
    still holds its block and the output's holds `out0_5` of the five input blocks; the body needs nothing beyond its
    windows, so the invariant is the library's (`Pipeline.ΦA`: the scoped buffers that are no staging buffer, and the generator
    register, both untouched); full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The arrays of the proof data are `V`'s: a projection of the structure, so the long fold behind `V` is never opened. -/
theorem A_eq (c : Dev nD) (w : Fin cfg0.W) : (dats m 0 c).A w = V m c (Pipeline.arrRef spec0 w) := by
  dsimp only [dats]

/-- What the body leaves, window by window (again projections, reduced without comparing any contents). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by
  dsimp only [dats]

/-- So each input's buffer holds its block when the body starts, at both points. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a grid point -/

/-- What the pipeline hands the body at point `t`: the invariant, the core's dues, and the six current staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it must give back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- At any point the inputs' buffers hold their blocks, so the body's triple applies with `xW := iblk m c W t`; the
    invariant and the dues are not touched and pass through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's obligation on the body, at every point: its conjunction over the windows, spelt out, is `bodyPre` /
    `bodyPost`. -/
theorem body_obligation (c : Dev nD) : BodyObligation (dats (F := F) m 0 c) (defs₀ (F := F)) Variants.none () Set.univ := fun t => by
  rw [bigSep_W0, bigSep_W0]
  exact sound_body m c t

/-! ## The run -/

-- the launch theorem's implicit arguments are found by unifying its conclusion with the statement, which needs plain
-- definitions unfolded inside the type of a metavariable
set_option backward.isDefEq.respectTransparency.types false in
/-- From any launch memory `m` with all counters at zero and any generator registers: every weakly fair execution of
    `@main` terminates without fault; at the end each of the six arrays of the region holds what the proof data say after
    the last point (an input its contents at entry, the output those with each point's block overwritten by what the body
    left), and every other unscoped buffer holds what the closing reshape leaves of the contents at entry. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The frame -/

/-- The two facts about the arguments, for a reference known only to be one of the six. -/
theorem V_arg (c : Dev nD) (a : Ref sig .tc)
    (ha : a = main_arg0 ∨ a = main_arg1 ∨ a = main_arg2 ∨ a = main_arg3 ∨ a = main_arg4 ∨ a = main_arg5) :
    V m c a = m ((c : Thread nD τ).loc a) := by
  rcases ha with rfl | rfl | rfl | rfl | rfl | rfl
  exacts [V_main_arg0 m c, V_main_arg1 m c, V_main_arg2 m c, V_main_arg3 m c, V_main_arg4 m c, V_main_arg5 m c]
theorem W_arg (dats' : (p : Fin _) → (c : Dev nD) → Dat τ (Elt F) Unit ℕ (UR sig nD τ) ℕ (cfgs p) c) (c : Dev nD) (a : Ref sig .tc)
    (ha : a = main_arg0 ∨ a = main_arg1 ∨ a = main_arg2 ∨ a = main_arg3 ∨ a = main_arg4 ∨ a = main_arg5) :
    Pipeline.afterTail₀ cfgs dats' 0 (V0 m) [hostOps1] c a = m ((c : Thread nD τ).loc a) := by
  rcases ha with rfl | rfl | rfl | rfl | rfl | rfl
  exacts [W_main_arg0 m dats' c, W_main_arg1 m dats' c, W_main_arg2 m dats' c, W_main_arg3 m dats' c, W_main_arg4 m dats' c,
    W_main_arg5 m dats' c]

/-- THE FRAME of the reference, at any float interpretation: every weakly fair execution of `@main` from `m` terminates
    without fault and leaves each of the six argument arrays, on every core, as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.ReferenceIdeal.Fr

end
-- ==== Proof.RefPayload.lean ====
import proofs.«110255_g2000405613621400_pallasbulk_266_2_alg».proof.Proof.Gen.ReferenceIdeal.Skeleton
import Idealize.ShloMosaic.Lib.ValueIdx
import Idealize.ShloMosaic.Lib.ValueLayout
import Idealize.ShloMosaic.PureOps.Ideal.Laws

/-!
# The reference kernel body's stored value, read at an index

At the ideal values the one store of the reference's kernel body writes, at row `r` and column `s`,
the matrix product of the two large operands at `(r, s)` plus a conditioning column that depends on
`r` alone: the row sum of an elementwise product against a broadcast row, plus column 0 of the
auxiliary block, plus the product of its columns 2 and 1.
-/

noncomputable section

namespace Cert.ReferenceIdeal.Pay

open Idealize.ShloMosaic Idealize.ShloMosaic.ValueIdx
open scoped BigOperators

/-! ## Two layout operations at an index: the keepdims column cast and the column broadcast -/

section Layout
variable {α : Type}

/-- An `[a]` array cast to the column `[a, 1]` reads, at `(i, u)`, the operand at `i`, whatever the unit
coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The matrix product at an index -/

/-- The body's `tpu.matmul` into the zero accumulator, read at `(r, s)`: the sum over the contracted
coordinate of the products of the entries. -/
theorem matmul_apply (A : FVec Ideal S1024x1024 .f32) (B : FVec Ideal S1024x2048 .f32) (r : Fin 1024) (s : Fin 2048) :
    matmul dot_S1024x1024_S1024x2048_S1024x2048_1_0_0_1_n_n none A B (constant S1024x2048 .f32 0x00000000#32) (ix2 r s)
      = ∑ k : Fin 1024, A (ix2 r k) * B (ix2 k s) := by
  show FloatOps.matmul _ none A B (constant S1024x2048 .f32 0x00000000#32) (ix2 r s) = _
  rw [Ideal.matmul_constant_zero_apply,
    ← Equiv.sum_comp (contrEquiv1 dot_S1024x1024_S1024x2048_S1024x2048_1_0_0_1_n_n 1024 rfl rfl).symm]
  refine Finset.sum_congr rfl fun k _ => ?_
  have c2 := contrEquiv1_symm_val dot_S1024x1024_S1024x2048_S1024x2048_1_0_0_1_n_n 1024 rfl rfl k
  have l2 : dot_S1024x1024_S1024x2048_S1024x2048_1_0_0_1_n_n.lhsIdx (ix2 r s)
      ((contrEquiv1 _ 1024 rfl rfl).symm k) = ix2 r k := by
    funext ax; apply Fin.ext
    match ax with
    | ⟨0, _⟩ => simp [DotDims.lhsIdx, dot_S1024x1024_S1024x2048_S1024x2048_1_0_0_1_n_n]; rfl
    | ⟨1, _⟩ => simp [DotDims.lhsIdx, dot_S1024x1024_S1024x2048_S1024x2048_1_0_0_1_n_n]; exact c2
  have r2 : dot_S1024x1024_S1024x2048_S1024x2048_1_0_0_1_n_n.rhsIdx (ix2 r s)
      ((contrEquiv1 _ 1024 rfl rfl).symm k) = ix2 k s := by
    funext ax; apply Fin.ext
    match ax with
    | ⟨0, _⟩ => simp [DotDims.rhsIdx, dot_S1024x1024_S1024x2048_S1024x2048_1_0_0_1_n_n]; exact c2
    | ⟨1, _⟩ => simp [DotDims.rhsIdx, dot_S1024x1024_S1024x2048_S1024x2048_1_0_0_1_n_n]; rfl
  rw [l2, r2]

/-! ## The row sum at an index -/

/-- The body's `vector.multi_reduction <add>` along the columns of a `1024 × 1024` vector, read at row `r`: the sum
of that row's entries. -/
theorem rowSum_apply (src : FVec Ideal S1024x1024 .f32) (h : S1024x1024.Reduces [1] S1024) (hφ : FKind.Formats .f32)
    (hacc : (0x00000000#32 : BitVec FTy.f32.bits) = FKind.add.neutral .f32 hφ) (r : Fin 1024) :
    multiReduction .add [1] S1024 src 0x00000000#32 h hφ hacc (ix1 r) = ∑ k : Fin 1024, src (ix2 r k) := by
  refine (Ideal.multiReduction_add_single src _ h hφ hacc (ix1 r)).trans ?_
  show ∑ k : Fin 1024, src (h.lift (ix1 r) k) = _
  refine Finset.sum_congr rfl fun k _ => congrArg src ?_
  funext ax; apply Fin.ext
  match ax with
  | ⟨0, _⟩ => rfl
  | ⟨1, _⟩ => rfl

/-! ## The stored value at an index -/

/-- THE PAYLOAD AT `(r, s)`: the product of the two large operands at `(r, s)`, plus the conditioning value of
row `r` — the row sum of the third operand against the broadcast row, plus column 0 of the auxiliary block, plus
the product of its columns 2 and 1. -/
theorem k0_pay1_apply (v0 v16 : Vec Ideal S1024x1024 .f32) (v2 : Vec Ideal S1x1024 .f32) (v8 : Vec Ideal S1024x3 .f32)
    (v18 : Vec Ideal S1024x2048 .f32) (r : Fin 1024) (s : Fin 2048) :
    Gen.k0_pay1 v0 v2 v8 v16 v18 (ix2 r s)
      = (∑ k : Fin 1024, v16 (ix2 r k) * v18 (ix2 k s))
        + (((∑ k : Fin 1024, v0 (ix2 r k) * v2 (ix2 (0 : Fin 1) k)) + v8 (ix2 r (0 : Fin 3)))
            + v8 (ix2 r (2 : Fin 3)) * v8 (ix2 r (1 : Fin 3))) := by
  unfold Gen.k0_pay1
  simp only [shapeCast_self]
  refine (addf_apply _ _ _).trans (congrArg₂ (· + ·) (matmul_apply v16 v18 r s) ?_)
  refine (broadcastTo_a1_ab_apply _ _ r s).trans ?_
  refine (addf_apply _ _ _).trans (congrArg₂ (· + ·) ((addf_apply _ _ _).trans (congrArg₂ (· + ·) ?_ ?_))
    ((mulf_apply _ _ _).trans (congrArg₂ (· * ·) ?_ ?_)))
  · refine (shapeCast_a_a1_apply _ _ r 0).trans ((rowSum_apply _ _ _ _ r).trans (Finset.sum_congr rfl fun k _ => ?_))
    exact (mulf_apply _ _ _).trans (congrArg (v0 (ix2 r k) * ·) (broadcastTo_1b_ab_apply v2 _ r k))
  · exact slice2_axis1_apply 0 v8 _ r 0 0 rfl
  · exact slice2_axis1_apply 2 v8 _ r 0 2 rfl
  · exact slice2_axis1_apply 1 v8 _ r 0 1 rfl

end Cert.ReferenceIdeal.Pay

end
-- ==== Proof.RefValue.lean ====
/-
  What the reference's region leaves in its result array, as one function of the five arrays it reads.

  The region's result is a 1024 × 4096 matrix, written in two column blocks of width 2048, one per grid point. At
  point h the body stores, into the block of columns 2048·h … 2048·h + 2047, its payload of the five input blocks at
  the point: the column block h of the flattened image and four whole arrays (the two block-diagonal matrices, the
  flattened row of labels and the three-column side table). Read at an entry (r, s) the payload is the product of row
  r of the first block-diagonal matrix with column s of the image block, plus a term of the row r alone: row r of the
  second block-diagonal matrix against the label row, plus column 0 of the side table, plus the product of its columns
  2 and 1. The two blocks tile the matrix, so the whole matrix is that function of its index.
-/
import proofs.«110255_g2000405613621400_pallasbulk_266_2_alg».proof.Proof.RefFrame
import proofs.«110255_g2000405613621400_pallasbulk_266_2_alg».proof.Proof.RefPayload
import Idealize.ShloMosaic.Lib.Pipeline.Value
import Idealize.ShloMosaic.Lib.StableHlo.Run
import Idealize.ShloMosaic.Lib.ValueIdx

set_option maxRecDepth 16384

noncomputable section

namespace Cert.ReferenceIdeal.Val

open Cert.ReferenceIdeal Cert.ReferenceIdeal.Gen Cert.ReferenceIdeal.Fr
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- One entry of the region's result from the five arrays the region reads: `a0` the image as a 1024 × 4096 matrix,
    `a1` and `a2` the two 1024 × 1024 block-diagonal matrices, `a3` the labels as one row of 1024, `a4` the side table of
    three columns. -/
def elem (a0 : S1024x4096.Idx → EReal) (a1 a2 : S1024x1024.Idx → EReal) (a3 : S1x1024.Idx → EReal) (a4 : S1024x3.Idx → EReal)
    (r : Fin 1024) (s : Fin 4096) : EReal :=
  (∑ k : Fin 1024, a1 (ix2 r k) * a0 (ix2 k s))
    + (((∑ k : Fin 1024, a2 (ix2 r k) * a3 (ix2 (0 : Fin 1) k)) + a4 (ix2 r (0 : Fin 3))) + a4 (ix2 r (2 : Fin 3)) * a4 (ix2 r (1 : Fin 3)))

/-- The whole result matrix as that function of its index. -/
def Gk (a0 : S1024x4096.Idx → EReal) (a1 a2 : S1024x1024.Idx → EReal) (a3 : S1x1024.Idx → EReal) (a4 : S1024x3.Idx → EReal) :
    S1024x4096.Idx → EReal :=
  fun i => elem a0 a1 a2 a3 a4 (i 0) (i 1)

/-- The offset of every access of the body is the zero vector. -/
theorem hz2 : (![0, 0] : Fin 2 → Nat) = fun _ => 0 := funext fun a => by fin_cases a <;> rfl

/-- The printed index maps, decided over the two grid points: the image block is the column block of the output block;
    the four other inputs are whole arrays, at block index (0, 0); the output's block index is (0, h) with h ≤ 1. -/
theorem idx_facts : ∀ t : Fin cfg0.N,
    win0_0.index t (0 : Fin 2) = 0 ∧ win0_0.index t (1 : Fin 2) = win0_5.index t (1 : Fin 2)
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) ≤ 1 :=
  (by decide +kernel : ∀ t : Fin grid0.N, _)

/-- Each of the two column blocks is some point's. -/
theorem idx_onto : ∀ q : Fin 2, ∃ t : Fin cfg0.N, win0_5.index t = ![0, q.val] :=
  (by decide +kernel : ∀ q : Fin 2, ∃ t : Fin grid0.N, win0_5.index t = ![0, q.val])

/-- The payload of five blocks that are the restrictions of five arrays to the blocks of point `h` — the image's column
    block `h`, the four others whole — is the entry (r, 2048·h + s) of the whole-matrix function. -/
theorem point_eq (x0 : Vec Ideal S1024x2048 .f32) (x1 x2 : Vec Ideal S1024x1024 .f32) (x3 : Vec Ideal S1x1024 .f32) (x4 : Vec Ideal S1024x3 .f32)
    (a0 : S1024x4096.Idx → EReal) (a1 a2 : S1024x1024.Idx → EReal) (a3 : S1x1024.Idx → EReal) (a4 : S1024x3.Idx → EReal)
    (h : Fin 2) (r : Fin 1024) (s : Fin 2048)
    (h0 : ∀ (k : Fin 1024) (s' : Fin 2048), x0 (ix2 k s') = a0 (ix2 k ⟨h.val * 2048 + s'.val, by omega⟩))
    (h1 : ∀ (r' k : Fin 1024), x1 (ix2 r' k) = a1 (ix2 r' k)) (h2 : ∀ (r' k : Fin 1024), x2 (ix2 r' k) = a2 (ix2 r' k))
    (h3 : ∀ k : Fin 1024, x3 (ix2 (0 : Fin 1) k) = a3 (ix2 (0 : Fin 1) k))
    (h4 : ∀ (r' : Fin 1024) (j : Fin 3), x4 (ix2 r' j) = a4 (ix2 r' j)) :
    k0_pay1 x2 x3 x4 x1 x0 (ix2 r s) = elem a0 a1 a2 a3 a4 r ⟨h.val * 2048 + s.val, by omega⟩ := by
  rw [Cert.ReferenceIdeal.Pay.k0_pay1_apply]
  unfold elem
  simp only [h0, h1, h2, h3, h4]

/-- What point `t` writes back is the block of the whole-matrix function at the point. The body's one store and five
    loads go through whole buffers, so the written contents are the payload of the five input blocks; each input block
    is its array read where the block sits (a block's coordinate is its index times the block's extent plus the coordinate
    inside the block), and the decided index facts turn those positions into the ones `point_eq` asks for. -/
theorem flushed_eq (c : Dev nD) (t : Fin cfg0.N) :
    (dats m 0 c).flushed 5 t = ((cfg0.win 5).blk t).view.read (Elt Ideal)
      (Gk (V m c main_v0) (V m c main_v8) (V m c main_v10) (V m c main_v11) (V m c main_v26)) := by
  show (cfg0.win 5).cut (grid0.coords t) ((dats m 0 c).after 5 t) = _
  rw [after0_5]
  unfold out0_5
  rw [View.canon_unit_zero hz2]
  simp only [View.ld_unit_zero (S := S1024x2048) hz2, View.ld_unit_zero (S := S1024x1024) hz2,
    View.ld_unit_zero (S := S1x1024) hz2, View.ld_unit_zero (S := S1024x3) hz2]
  funext j
  obtain ⟨r, s, rfl⟩ : ∃ (r : Fin 1024) (s : Fin 2048), j = ix2 r s := ⟨j 0, j 1, eq_ix2 j⟩
  obtain ⟨e00, e01, e10, e11, e20, e21, e30, e31, e40, e41, e50, hh⟩ := idx_facts t
  show k0_pay1 (iblk m c 2 t) (iblk m c 3 t) (iblk m c 4 t) (iblk m c 1 t) (iblk m c 0 t) (ix2 r s)
    = Gk (V m c main_v0) (V m c main_v8) (V m c main_v10) (V m c main_v11) (V m c main_v26) (((cfg0.win 5).blk t).view.emb (ix2 r s))
  refine (point_eq (iblk m c 0 t) (iblk m c 1 t) (iblk m c 2 t) (iblk m c 3 t) (iblk m c 4 t)
    (V m c main_v0) (V m c main_v8) (V m c main_v10) (V m c main_v11) (V m c main_v26)
    ⟨win0_5.index t (1 : Fin 2), by omega⟩ r s ?_ ?_ ?_ ?_ ?_).trans ?_
  · intro k s'
    show V m c main_v0 (((cfg0.win 0).blk t).view.emb (ix2 k s')) = _
    refine congrArg _ (funext fun a => Fin.ext ?_)
    match a with
    | ⟨0, _⟩ => show win0_0.index t (0 : Fin 2) * 1024 + 1 * k.val = k.val; omega
    | ⟨1, _⟩ => show win0_0.index t (1 : Fin 2) * 2048 + 1 * s'.val = win0_5.index t (1 : Fin 2) * 2048 + s'.val; omega
  · intro r' k
    show V m c main_v8 (((cfg0.win 1).blk t).view.emb (ix2 r' k)) = _
    refine congrArg _ (funext fun a => Fin.ext ?_)
    match a with
    | ⟨0, _⟩ => show win0_1.index t (0 : Fin 2) * 1024 + 1 * r'.val = r'.val; omega
    | ⟨1, _⟩ => show win0_1.index t (1 : Fin 2) * 1024 + 1 * k.val = k.val; omega
  · intro r' k
    show V m c main_v10 (((cfg0.win 2).blk t).view.emb (ix2 r' k)) = _
    refine congrArg _ (funext fun a => Fin.ext ?_)
    match a with
    | ⟨0, _⟩ => show win0_2.index t (0 : Fin 2) * 1024 + 1 * r'.val = r'.val; omega
    | ⟨1, _⟩ => show win0_2.index t (1 : Fin 2) * 1024 + 1 * k.val = k.val; omega
  · intro k
    show V m c main_v11 (((cfg0.win 3).blk t).view.emb (ix2 (0 : Fin 1) k)) = _
    refine congrArg _ (funext fun a => Fin.ext ?_)
    match a with
    | ⟨0, _⟩ => show win0_3.index t (0 : Fin 2) * 1 + 1 * 0 = 0; omega
    | ⟨1, _⟩ => show win0_3.index t (1 : Fin 2) * 1024 + 1 * k.val = k.val; omega
  · intro r' j
    show V m c main_v26 (((cfg0.win 4).blk t).view.emb (ix2 r' j)) = _
    refine congrArg _ (funext fun a => Fin.ext ?_)
    match a with
    | ⟨0, _⟩ => show win0_4.index t (0 : Fin 2) * 1024 + 1 * r'.val = r'.val; omega
    | ⟨1, _⟩ => show win0_4.index t (1 : Fin 2) * 3 + 1 * j.val = j.val; omega
  · unfold Gk
    congr 1 <;> refine Fin.ext ?_
    · show r.val = win0_5.index t (0 : Fin 2) * 1024 + 1 * r.val; omega
    · show win0_5.index t (1 : Fin 2) * 2048 + s.val = win0_5.index t (1 : Fin 2) * 2048 + 1 * s.val; omega

/-- An index of the result matrix lies in point `t`'s block iff, on each axis, its coordinate lies in the block's range. -/
theorem mem_blk (t : Fin cfg0.N) (i : S1024x4096.Idx) :
    i ∈ ((cfg0.win 5).blk t).view.set ↔ ∀ a : Fin 2, win0_5.index t a * S1024x2048.size a ≤ (i a).val ∧ (i a).val < win0_5.index t a * S1024x2048.size a + S1024x2048.size a := by
  show i ∈ ((View.whole main_v27).slice (win0_5.rect t)).set ↔ _
  rw [View.set_slice_whole, Rect.mem_set_unit]
  exact Iff.rfl

/-- The two blocks tile the matrix: the entry (r, s) lies in the block of the point whose block index is (0, s / 2048),
    and every point writes its block back. -/
theorem cover (i : S1024x4096.Idx) : ∃ t : Fin cfg0.N, (cfg0.win 5).flush t = true ∧ i ∈ ((cfg0.win 5).blk t).view.set := by
  have hi0 : (i 0).val < 1024 := (i 0).isLt
  have hi1 : (i 1).val < 4096 := (i 1).isLt
  obtain ⟨t, ht⟩ := idx_onto ⟨(i 1).val / 2048, by omega⟩
  have q0 : win0_5.index t (0 : Fin 2) = 0 := congrFun ht 0
  have q1 : win0_5.index t (1 : Fin 2) = (i 1).val / 2048 := congrFun ht 1
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 2048 ≤ (i 1).val ∧ (i 1).val < win0_5.index t (1 : Fin 2) * 2048 + 2048; omega

/-- The region's result array after the last point is the whole-matrix function of the five arrays the region read. -/
theorem final (c : Dev nD) : (dats m 0 c).arrAt 5 cfg0.N
    = Gk (V m c main_v0) (V m c main_v8) (V m c main_v10) (V m c main_v11) (V m c main_v26) :=
  (dats m 0 c).arrAt_eq_of_cover 5 _ (fun t _ => flushed_eq m c t) cover

/-! ## The closing reshape and the run -/

/-- The program's result as the last line of `@main` leaves it: the region's result matrix, relaid as [8, 128, 64, 64]. -/
def res (c : Dev nD) : S8x128x64x64.Idx → EReal :=
  shapeCast S8x128x64x64 (Gk (V m c main_v0) (V m c main_v8) (V m c main_v10) (V m c main_v11) (V m c main_v26)) shapeCasts_S1024x4096_S8x128x64x64

/-- After the region one host operation remains: it writes the result buffer with the reshape of the region's result
    array, and the run left that array at the whole-matrix function. -/
theorem tail_v28 (c : Dev nD) : Pipeline.afterTail₀ cfgs (dats m) 0 (V0 m) [hostOps1] c main_v28 = res m c := by
  unfold Pipeline.afterTail₀
  show StableHlo.after (hostOps1 (F := Ideal)) _ (Proc.devRef .tc main_v28) = _
  after_results
  have e := (Pipeline.withArrays_arr spec0 launch0.win.arr_inj c (V0 m c) (fun w => (dats m 0 c).arrAt w cfg0.N) 5).trans (final m c)
  funext i
  exact congrArg (fun X : S1024x4096.Idx → EReal => shapeCast S8x128x64x64 X shapeCasts_S1024x4096_S8x128x64x64 i) e

/-- The run, read: every weakly fair execution terminates without fault, the result buffer holds `res`, and the six
    arguments end as launched. -/
theorem run : θ_run defs (onTc (τ := τ) (main (F := Ideal))) ⟨m, fun _ => 0, ρ⟩ (fun r => ∀ c : Dev nD,
      r.2.mem ((c.tc : Thread nD τ).loc main_v28) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v28 (Pipeline.mem_restRefs_of main_v28 (by decide) (by decide))).trans (tail_v28 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main (F := Ideal) m ρ)

end Cert.ReferenceIdeal.Val

end
-- ==== Proof.RefHost.lean ====
import proofs.«110255_g2000405613621400_pallasbulk_266_2_alg».proof.Proof.Gen.ReferenceIdeal.Launch
import Idealize.ShloMosaic.Lib.ValueIdx
import Idealize.ShloMosaic.Lib.ValueLayout
import Idealize.ShloMosaic.Lib.StableHlo.Run

/-!
# What the reference's host prefix leaves in the kernel's operand arrays, read at an index

Before its one kernel launch the reference program builds five operand arrays from its six arguments by layout
operations alone, apart from one integer-to-float conversion: the input flattened to `1024 × 4096`; two
block-diagonal `1024 × 1024` matrices, the Kronecker products of the `8 × 8` identity pattern with the two halves of
the weight; the labels flattened to one row of 1024; and a `1024 × 3` auxiliary block whose columns are the bias
tiled 8 times, the projection tiled 8 times, and each converted integer repeated 128 times. At the ideal values every
entry of these arrays is an entry of an argument, or `1` or `0` times one. Rows and columns of length 1024 are read as
8 blocks of 128: position `j` of block `b` is `b * 128 + j` (`blk b j`).
-/

noncomputable section

namespace Cert.ReferenceIdeal.HostVal

open Idealize.ShloMosaic Idealize.ShloMosaic.ValueIdx Idealize.ShloMosaic.StableHlo

variable (m : (ℓ : Loc nD τ sig) → Buf (Elt Ideal) ℓ) (c : Dev nD)

/-- The contents of core `c`'s buffers after the host operations before the launch, from the launch memory `m`. -/
local notation "Wv" => StableHlo.after (List.flatten [Gen.hostOps0 (F := Ideal), Gen.hostOps0_1, Gen.hostOps0_2, Gen.hostOps0_3, Gen.hostOps0_4]) (fun b => m (c, b))

/-! ## The pieces of the host prefix as functions, read at an index -/

/-- The `8 × 8` identity pattern as the host computes it: the unsigned conversion of the comparison of the row
number (plus a zero offset) with the column number. -/
def eye : FVec Ideal S8x8 .f32 :=
  uitofp .f32 (cmpi .eq (addi (iotaInDim S8x8 32 0) (broadcastInDim S8x8 ![] Gen.bcast_S_S8x8 (constantI S_ 32 0#32)))
    (iotaInDim S8x8 32 1))

/-- At the ideal values it is `1` on the diagonal and `0` off it. -/
theorem eye_apply (b b' : Fin 8) : eye (ix2 b b') = if b = b' then (1 : EReal) else 0 := by
  show (((BitVec.ofBool (BitVec.ofNat 32 b.val + 0#32 == BitVec.ofNat 32 b'.val)).toNat : ℝ) : EReal) = _
  have h : ∀ b b' : Fin 8, (BitVec.ofNat 32 b.val + 0#32 == BitVec.ofNat 32 b'.val) = decide (b = b') := by decide
  rw [h]
  by_cases hb : b = b'
  · rw [if_pos hb, decide_eq_true hb]; simp
  · rw [if_neg hb, decide_eq_false hb]; simp

/-- The Kronecker product of the `8 × 8` identity pattern with a `128 × 128` matrix, as the host computes it: both
broadcast to `8 × 128 × 8 × 128`, multiplied, and flattened to `1024 × 1024`. -/
def kron (W : FVec Ideal S128x128 .f32) : FVec Ideal S1024x1024 .f32 :=
  shapeCast S1024x1024
    (mulf
      (broadcastInDim S8x128x8x128 ![0, 1, 2, 3] Gen.bcast_S8x1x8x1_S8x128x8x128_0_1_2_3
        (broadcastInDim S8x1x8x1 ![0, 2] Gen.bcast_S8x8_S8x1x8x1_0_2 eye))
      (broadcastInDim S8x128x8x128 ![0, 1, 2, 3] Gen.bcast_S1x128x1x128_S8x128x8x128_0_1_2_3
        (broadcastInDim S1x128x1x128 ![1, 3] Gen.bcast_S128x128_S1x128x1x128_1_3 W)))
    Gen.shapeCasts_S8x128x8x128_S1024x1024

/-- Position `j` of block `b`, of 8 blocks of 128, as an element of `Fin 1024`. -/
abbrev blk (b : Fin 8) (j : Fin 128) : Fin 1024 := ⟨b.val * 128 + j.val, by have := b.isLt; have := j.isLt; omega⟩

/-- The Kronecker product at row `o` of block `b` and column `c` of block `b'`: the matrix entry `(o, c)` on the
diagonal blocks, `0` times it off them. -/
theorem kron_apply (W : FVec Ideal S128x128 .f32) (b b' : Fin 8) (o c : Fin 128) :
    kron W (ix2 (blk b o) (blk b' c)) = (if b = b' then (1 : EReal) else 0) * W (ix2 o c) := by
  unfold kron
  refine (shapeCast_apply _ _ _ (ix4 b o b' c) ?_).trans ?_
  · rw [Shape.rowMajor_val_four, Shape.rowMajor_val_two]
    show ((b.val * 128 + o.val) * 8 + b'.val) * 128 + c.val = (b.val * 128 + o.val) * 1024 + (b'.val * 128 + c.val)
    omega
  refine (mulf_apply _ _ _).trans (congrArg₂ (· * ·) ?_ ?_)
  · refine (broadcastInDim_apply _ _ _ _ (ix4 b (0 : Fin 1) b' (0 : Fin 1)) ?_).trans
      ((broadcastInDim_apply _ _ _ _ (ix2 b b') ?_).trans (eye_apply b b'))
    · intro a; match a with
      | ⟨0, _⟩ => rfl
      | ⟨1, _⟩ => rfl
      | ⟨2, _⟩ => rfl
      | ⟨3, _⟩ => rfl
    · intro a; match a with
      | ⟨0, _⟩ => rfl
      | ⟨1, _⟩ => rfl
  · refine (broadcastInDim_apply _ _ _ _ (ix4 (0 : Fin 1) o (0 : Fin 1) c) ?_).trans
      (broadcastInDim_apply _ _ _ _ (ix2 o c) ?_)
    · intro a; match a with
      | ⟨0, _⟩ => rfl
      | ⟨1, _⟩ => rfl
      | ⟨2, _⟩ => rfl
      | ⟨3, _⟩ => rfl
    · intro a; match a with
      | ⟨0, _⟩ => rfl
      | ⟨1, _⟩ => rfl

/-- A `128 × 1` column tiled 8 times down a `1024 × 1` column, as the host computes it: flattened, laid as one row,
broadcast over 8 rows, flattened again and stood up as a column. -/
def tileCol (x : FVec Ideal S128x1 .f32) : FVec Ideal S1024x1 .f32 :=
  broadcastInDim S1024x1 ![0] Gen.bcast_S1024_S1024x1_0
    (shapeCast S1024
      (broadcastInDim S8x128 ![0, 1] Gen.bcast_S1x128_S8x128_0_1
        (shapeCast S1x128 (shapeCast S128 x Gen.shapeCasts_S128x1_S128) Gen.shapeCasts_S128_S1x128))
      Gen.shapeCasts_S8x128_S1024)

/-- The tiled column at row `o` of block `b` is the column at row `o`. -/
theorem tileCol_apply (x : FVec Ideal S128x1 .f32) (b : Fin 8) (o : Fin 128) (u : Fin 1) :
    tileCol x (ix2 (blk b o) u) = x (ix2 o (0 : Fin 1)) := by
  unfold tileCol
  refine (broadcastInDim_apply _ _ _ _ (ix1 (blk b o)) ?_).trans ?_
  · intro a; match a with
    | ⟨0, _⟩ => rfl
  refine (shapeCast_apply _ _ _ (ix2 b o) ?_).trans ?_
  · rw [Shape.rowMajor_val_two, Shape.rowMajor_val_one]; rfl
  refine (broadcastInDim_apply _ _ _ _ (ix2 (0 : Fin 1) o) ?_).trans ?_
  · intro a; match a with
    | ⟨0, _⟩ => rfl
    | ⟨1, _⟩ => rfl
  refine (shapeCast_a_1a_apply _ _ 0 o).trans ?_
  refine shapeCast_apply _ _ _ (ix2 o (0 : Fin 1)) ?_
  rw [Shape.rowMajor_val_two, Shape.rowMajor_val_one]
  show o.val * 1 + 0 = o.val
  omega

/-- A vector of 8 entries, each repeated 128 times down a `1024 × 1` column, as the host computes it: broadcast along
a new second axis, flattened and stood up as a column. -/
def repCol (t : FVec Ideal S8 .f32) : FVec Ideal S1024x1 .f32 :=
  broadcastInDim S1024x1 ![0] Gen.bcast_S1024_S1024x1_0
    (shapeCast S1024 (broadcastInDim S8x128 ![0] Gen.bcast_S8_S8x128_0 t) Gen.shapeCasts_S8x128_S1024)

/-- The repeated column at any row of block `b` is entry `b`. -/
theorem repCol_apply (t : FVec Ideal S8 .f32) (b : Fin 8) (o : Fin 128) (u : Fin 1) :
    repCol t (ix2 (blk b o) u) = t (ix1 b) := by
  unfold repCol
  refine (broadcastInDim_apply _ _ _ _ (ix1 (blk b o)) ?_).trans ?_
  · intro a; match a with
    | ⟨0, _⟩ => rfl
  refine (shapeCast_apply _ _ _ (ix2 b o) ?_).trans ?_
  · rw [Shape.rowMajor_val_two, Shape.rowMajor_val_one]; rfl
  refine broadcastInDim_apply _ _ _ _ (ix1 b) ?_
  intro a; match a with
  | ⟨0, _⟩ => rfl

/-! ## A three-operand host operation's result, each operand's contents at its own reference -/

section Nary3
variable {τ' : Topo} {sg : RefSig} {Val : EltTy → Type} {x a b y : Ref sg .tc}

/-- The result of an operation over a literal family of three references, the operands' contents written one by one
(so that the operations before it can go on being read off the same goal). -/
theorem nary3_result
    (f : ((k : Fin 3) → ((![x, a, b] : Fin 3 → Ref sg .tc) k).ty.Contents Val) → y.ty.Contents Val) (hxs hy)
    (F : Valuation τ' sg Val) :
    (StableHlo.nary (τ := τ') ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- The same with the result reference left out of the rule's index, so that it fires as a rewrite rule on a literal
reference. -/
theorem nary3_result'
    (f : ((k : Fin 3) → ((![x, a, b] : Fin 3 → Ref sg .tc) k).ty.Contents Val) → y.ty.Contents Val) (hxs hy)
    (F : Valuation τ' sg Val) :
    (StableHlo.nary (τ := τ') ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Nary3

/-! ## Three columns side by side, read at an index -/

/-- Column 0 of three `1024 × 1` columns laid side by side is the first. -/
theorem concat3_apply0 (x0 x1 x2 : FVec Ideal S1024x1 .f32)
    (h : Shape.Concatenates [S1024x1, S1024x1, S1024x1] S1024x3 1)
    (r : Fin 1024) :
    concatenate S1024x3 1 [⟨S1024x1, x0⟩, ⟨S1024x1, x1⟩, ⟨S1024x1, x2⟩] h (ix2 r (0 : Fin 3)) = x0 (ix2 r (0 : Fin 1)) :=
  concatenate_apply_piece (t := S1024x3) 1 [⟨S1024x1, x0⟩, ⟨S1024x1, x1⟩, ⟨S1024x1, x2⟩] h (ix2 r (0 : Fin 3)) 0 (by show 0 < 3; omega) S1024x1 x0 rfl rfl 0 rfl (ix2 r (0 : Fin 1))
    (fun b => match b with
      | ⟨0, _⟩ => fun _ => rfl
      | ⟨1, _⟩ => fun hb => absurd rfl hb)
    rfl

/-- Column 1 is the second. -/
theorem concat3_apply1 (x0 x1 x2 : FVec Ideal S1024x1 .f32)
    (h : Shape.Concatenates [S1024x1, S1024x1, S1024x1] S1024x3 1)
    (r : Fin 1024) :
    concatenate S1024x3 1 [⟨S1024x1, x0⟩, ⟨S1024x1, x1⟩, ⟨S1024x1, x2⟩] h (ix2 r (1 : Fin 3)) = x1 (ix2 r (0 : Fin 1)) :=
  concatenate_apply_piece (t := S1024x3) 1 [⟨S1024x1, x0⟩, ⟨S1024x1, x1⟩, ⟨S1024x1, x2⟩] h (ix2 r (1 : Fin 3)) 1 (by show 1 < 3; omega) S1024x1 x1 rfl rfl 1 rfl (ix2 r (0 : Fin 1))
    (fun b => match b with
      | ⟨0, _⟩ => fun _ => rfl
      | ⟨1, _⟩ => fun hb => absurd rfl hb)
    rfl

/-- Column 2 is the third. -/
theorem concat3_apply2 (x0 x1 x2 : FVec Ideal S1024x1 .f32)
    (h : Shape.Concatenates [S1024x1, S1024x1, S1024x1] S1024x3 1)
    (r : Fin 1024) :
    concatenate S1024x3 1 [⟨S1024x1, x0⟩, ⟨S1024x1, x1⟩, ⟨S1024x1, x2⟩] h (ix2 r (2 : Fin 3)) = x2 (ix2 r (0 : Fin 1)) :=
  concatenate_apply_piece (t := S1024x3) 1 [⟨S1024x1, x0⟩, ⟨S1024x1, x1⟩, ⟨S1024x1, x2⟩] h (ix2 r (2 : Fin 3)) 2 (by show 2 < 3; omega) S1024x1 x2 rfl rfl 2 rfl (ix2 r (0 : Fin 1))
    (fun b => match b with
      | ⟨0, _⟩ => fun _ => rfl
      | ⟨1, _⟩ => fun hb => absurd rfl hb)
    rfl

/-! ## What the host prefix leaves in the five operand arrays, as terms over the argument arrays -/

/-- The streamed operand is the first argument flattened to `1024 × 4096`. -/
theorem v0_term : (Wv (Proc.devRef .tc main_v0) : FVec Ideal S1024x4096 .f32)
    = shapeCast S1024x4096 (m (c, Proc.devRef .tc main_arg0) : FVec Ideal S8x128x64x64 .f32) Gen.shapeCasts_S8x128x64x64_S1024x4096 := by
  simp only [Gen.hostOps0, Gen.hostOps0_1, Gen.hostOps0_2, Gen.hostOps0_3, Gen.hostOps0_4, List.flatten_cons, List.flatten_nil,
    List.append_nil, List.cons_append, List.nil_append]
  after_results_simp
  rfl

/-- The first block-diagonal operand is the Kronecker product with the left half of the weight. -/
theorem v8_term : (Wv (Proc.devRef .tc main_v8) : FVec Ideal S1024x1024 .f32)
    = kron (extractStridedSlice S128x128 ![0, 0] (m (c, Proc.devRef .tc main_arg3) : FVec Ideal S128x256 .f32) Gen.slices_S128x256_S128x128_0_0) := by
  simp only [Gen.hostOps0, Gen.hostOps0_1, Gen.hostOps0_2, Gen.hostOps0_3, Gen.hostOps0_4, List.flatten_cons, List.flatten_nil,
    List.append_nil, List.cons_append, List.nil_append]
  after_results_simp
  rfl

/-- The second block-diagonal operand is the Kronecker product with the right half of the weight. -/
theorem v10_term : (Wv (Proc.devRef .tc main_v10) : FVec Ideal S1024x1024 .f32)
    = kron (extractStridedSlice S128x128 ![0, 128] (m (c, Proc.devRef .tc main_arg3) : FVec Ideal S128x256 .f32) Gen.slices_S128x256_S128x128_0_128) := by
  simp only [Gen.hostOps0, Gen.hostOps0_1, Gen.hostOps0_2, Gen.hostOps0_3, Gen.hostOps0_4, List.flatten_cons, List.flatten_nil,
    List.append_nil, List.cons_append, List.nil_append]
  after_results_simp
  rfl

/-- The label row is the third argument flattened to one row. -/
theorem v11_term : (Wv (Proc.devRef .tc main_v11) : FVec Ideal S1x1024 .f32)
    = shapeCast S1x1024 (m (c, Proc.devRef .tc main_arg2) : FVec Ideal S8x128 .f32) Gen.shapeCasts_S8x128_S1x1024 := by
  simp only [Gen.hostOps0, Gen.hostOps0_1, Gen.hostOps0_2, Gen.hostOps0_3, Gen.hostOps0_4, List.flatten_cons, List.flatten_nil,
    List.append_nil, List.cons_append, List.nil_append]
  after_results_simp
  rfl

/-- The auxiliary block is three columns side by side: the two tiled columns and the repeated converted integers. -/
theorem v26_term : (Wv (Proc.devRef .tc main_v26) : FVec Ideal S1024x3 .f32)
    = concatenate S1024x3 1
        [⟨S1024x1, tileCol (m (c, Proc.devRef .tc main_arg4) : FVec Ideal S128x1 .f32)⟩,
         ⟨S1024x1, tileCol (m (c, Proc.devRef .tc main_arg5) : FVec Ideal S128x1 .f32)⟩,
         ⟨S1024x1, repCol (sitofp .f32 (m (c, Proc.devRef .tc main_arg1) : IVec S8 32))⟩]
        Gen.concatenates_S1024x1_S1024x1_S1024x1_S1024x3_d1 := by
  simp only [Gen.hostOps0, Gen.hostOps0_1, Gen.hostOps0_2, Gen.hostOps0_3, Gen.hostOps0_4, List.flatten_cons, List.flatten_nil,
    List.append_nil, List.cons_append, List.nil_append]
  simp (disch := decide) only [after_cons, after_nil,
      nullary_result', unary_result', binary_result', reshape_result', nary3_result',
      nullary_result_ne', unary_result_ne', binary_result_ne', reshape_result_ne', nary_result_ne']
  rfl

/-! ## The five operand arrays read at an index -/

/-- The streamed operand at row `ch` of block `b` and column `s` is the first argument at `(b, ch, s / 64, s % 64)`. -/
theorem v0_apply (b : Fin 8) (ch : Fin 128) (s : Fin 4096) :
    (Wv (Proc.devRef .tc main_v0) : FVec Ideal S1024x4096 .f32) (ix2 (blk b ch) s)
      = (m (c, Proc.devRef .tc main_arg0) : FVec Ideal S8x128x64x64 .f32)
          (ix4 b ch (⟨s.val / 64, by have := s.isLt; omega⟩ : Fin 64) (⟨s.val % 64, Nat.mod_lt _ (by decide)⟩ : Fin 64)) := by
  refine (congrFun (v0_term m c) _).trans ?_
  refine shapeCast_apply (s := S8x128x64x64) (t := S1024x4096) _ _ _ _ ?_
  rw [Shape.rowMajor_val_four, Shape.rowMajor_val_two]
  show ((b.val * 128 + ch.val) * 64 + s.val / 64) * 64 + s.val % 64 = (b.val * 128 + ch.val) * 4096 + s.val
  omega

/-- The first block-diagonal operand at row `o` of block `b` and column `c'` of block `b'`: the weight's entry
`(o, c')` on the diagonal blocks, `0` times it off them. -/
theorem v8_apply (b b' : Fin 8) (o c' : Fin 128) :
    (Wv (Proc.devRef .tc main_v8) : FVec Ideal S1024x1024 .f32) (ix2 (blk b o) (blk b' c'))
      = (if b = b' then (1 : EReal) else 0)
          * (m (c, Proc.devRef .tc main_arg3) : FVec Ideal S128x256 .f32) (ix2 o (⟨c'.val, by have := c'.isLt; omega⟩ : Fin 256)) := by
  refine (congrFun (v8_term m c) _).trans ((kron_apply _ b b' o c').trans (congrArg _ ?_))
  exact slice2_axis1_apply 0 _ _ o c' _ (Nat.zero_add _).symm

/-- The second block-diagonal operand likewise, with column `128 + c'` of the weight. -/
theorem v10_apply (b b' : Fin 8) (o c' : Fin 128) :
    (Wv (Proc.devRef .tc main_v10) : FVec Ideal S1024x1024 .f32) (ix2 (blk b o) (blk b' c'))
      = (if b = b' then (1 : EReal) else 0)
          * (m (c, Proc.devRef .tc main_arg3) : FVec Ideal S128x256 .f32) (ix2 o (⟨128 + c'.val, by have := c'.isLt; omega⟩ : Fin 256)) := by
  refine (congrFun (v10_term m c) _).trans ((kron_apply _ b b' o c').trans (congrArg _ ?_))
  exact slice2_axis1_apply 128 _ _ o c' _ rfl

/-- The label row at position `j` of block `b` is the third argument at `(b, j)`. -/
theorem v11_apply (b : Fin 8) (j : Fin 128) (u : Fin 1) :
    (Wv (Proc.devRef .tc main_v11) : FVec Ideal S1x1024 .f32) (ix2 u (blk b j))
      = (m (c, Proc.devRef .tc main_arg2) : FVec Ideal S8x128 .f32) (ix2 b j) := by
  refine (congrFun (v11_term m c) _).trans ?_
  refine shapeCast_apply (s := S8x128) (t := S1x1024) _ _ _ _ ?_
  have hu : u.val = 0 := by omega
  rw [Shape.rowMajor_val_two, Shape.rowMajor_val_two]
  show b.val * 128 + j.val = u.val * 1024 + (b.val * 128 + j.val)
  omega

/-- Column 0 of the auxiliary block at row `o` of block `b` is the fifth argument's entry `o`. -/
theorem v26_apply0 (b : Fin 8) (o : Fin 128) :
    (Wv (Proc.devRef .tc main_v26) : FVec Ideal S1024x3 .f32) (ix2 (blk b o) (0 : Fin 3))
      = (m (c, Proc.devRef .tc main_arg4) : FVec Ideal S128x1 .f32) (ix2 o (0 : Fin 1)) := by
  refine (congrFun (v26_term m c) _).trans ((concat3_apply0 _ _ _ _ _).trans (tileCol_apply _ b o 0))

/-- Column 1 is the sixth argument's entry `o`. -/
theorem v26_apply1 (b : Fin 8) (o : Fin 128) :
    (Wv (Proc.devRef .tc main_v26) : FVec Ideal S1024x3 .f32) (ix2 (blk b o) (1 : Fin 3))
      = (m (c, Proc.devRef .tc main_arg5) : FVec Ideal S128x1 .f32) (ix2 o (0 : Fin 1)) := by
  refine (congrFun (v26_term m c) _).trans ((concat3_apply1 _ _ _ _ _).trans (tileCol_apply _ b o 0))

/-- Column 2 is the second argument's integer `b`, converted. -/
theorem v26_apply2 (b : Fin 8) (o : Fin 128) :
    (Wv (Proc.devRef .tc main_v26) : FVec Ideal S1024x3 .f32) (ix2 (blk b o) (2 : Fin 3))
      = sitofp (F := Ideal) .f32 (m (c, Proc.devRef .tc main_arg1) : IVec S8 32) (ix1 b) := by
  refine (congrFun (v26_term m c) _).trans ((concat3_apply2 _ _ _ _ _).trans (repCol_apply _ b o 0))

end Cert.ReferenceIdeal.HostVal

end
-- ==== Proof.LibBlockDiag.lean ====
import Mathlib.Data.EReal.Basic
import Mathlib.Algebra.BigOperators.Fin
import Mathlib.Logic.Equiv.Fin.Basic

/-!
# A sum against a block-diagonal operand collapses to the diagonal block

On the extended reals, let `A` be one row of a block-diagonal matrix `kron (I_B, W)`: a vector indexed
by `Fin (B * N)` whose entry at position `b' * N + c` is `W c` when `b'` is the row's own block `b` and
`0` otherwise. Then `∑ k, A k * X k` only sees block `b` of `X`: it is `∑ c, W c * X (b * N + c)`.
No finiteness is needed: `0 * y = 0` for every extended real `y` (`⊤` and `⊥` included), and addition
on the extended reals is a commutative monoid.
-/

namespace Idealize.BlockDiag

open scoped BigOperators

/-- Position `c` of block `b` lies inside `B` blocks of `N`. -/
theorem blk_lt {B N : ℕ} (b : Fin B) (c : Fin N) : b.val * N + c.val < B * N := by
  have hb := b.isLt
  have hc := c.isLt
  calc b.val * N + c.val < b.val * N + N := Nat.add_lt_add_left hc _
    _ = (b.val + 1) * N := (Nat.succ_mul _ _).symm
    _ ≤ B * N := Nat.mul_le_mul_right N hb

/-- The position `b * N + c` as an element of `Fin (B * N)`. -/
abbrev blk {B N : ℕ} (b : Fin B) (c : Fin N) : Fin (B * N) := ⟨b.val * N + c.val, blk_lt b c⟩

/-- The block of a position: its quotient by the block length is below the number of blocks. -/
theorem div_lt {B N : ℕ} (k : Fin (B * N)) : k.val / N < B :=
  Nat.div_lt_of_lt_mul (lt_of_lt_of_eq k.isLt (Nat.mul_comm B N))

/-- The offset of a position inside its block: its remainder by the block length is below the block length. -/
theorem mod_lt {B N : ℕ} (k : Fin (B * N)) : k.val % N < N :=
  Nat.mod_lt _ (Nat.pos_of_ne_zero fun h => by subst h; exact absurd k.isLt (by simp))

/-- Mathlib's pairing of `Fin B × Fin N` with `Fin (B * N)` sends `(b, c)` to position `b * N + c`. -/
theorem finProdFinEquiv_eq_blk {B N : ℕ} (b : Fin B) (c : Fin N) : finProdFinEquiv (b, c) = blk b c :=
  Fin.ext (by
    show c.val + N * b.val = b.val * N + c.val
    rw [Nat.mul_comm, Nat.add_comm])

/-- THE COLLAPSE, for a row given by its entries: if `A` at position `b' * N + c` is `δ b b' * W c` (the row of
`kron (I_B, W)` that lies in block `b`), then the sum of `A k * X k` over all `B * N` positions is the sum over
block `b` alone of `W c * X (b * N + c)`. On the extended reals, with no finiteness hypothesis. -/
theorem sum_mul_of_blockDiag {B N : ℕ} (b : Fin B) (W : Fin N → EReal) (A X : Fin (B * N) → EReal)
    (hA : ∀ (b' : Fin B) (c : Fin N), A (blk b' c) = (if b = b' then (1 : EReal) else 0) * W c) :
    ∑ k : Fin (B * N), A k * X k = ∑ c : Fin N, W c * X (blk b c) := by
  rw [← Equiv.sum_comp finProdFinEquiv, Fintype.sum_prod_type, Finset.sum_eq_single b]
  · refine Finset.sum_congr rfl fun c _ => ?_
    rw [finProdFinEquiv_eq_blk, hA b c, if_pos rfl, one_mul]
  · intro b' _ hb'
    refine Finset.sum_eq_zero fun c _ => ?_
    rw [finProdFinEquiv_eq_blk, hA b' c, if_neg (Ne.symm hb'), zero_mul, zero_mul]
  · intro h
    exact absurd (Finset.mem_univ b) h

/-- Every position is position `k % N` of block `k / N`. -/
theorem eq_blk_div_mod {B N : ℕ} (k : Fin (B * N)) : k = blk (⟨k.val / N, div_lt k⟩ : Fin B) (⟨k.val % N, mod_lt k⟩ : Fin N) :=
  Fin.ext (by
    show k.val = k.val / N * N + k.val % N
    exact (Nat.div_add_mod' k.val N).symm)

/-- The block and the offset of position `b * N + c` are `b` and `c`. -/
theorem blk_div {B N : ℕ} (b : Fin B) (c : Fin N) : (blk b c).val / N = b.val := by
  have hN : 0 < N := Nat.pos_of_ne_zero fun h => by subst h; exact absurd c.isLt (by simp)
  show (b.val * N + c.val) / N = b.val
  rw [Nat.add_comm, Nat.add_mul_div_right _ _ hN, Nat.div_eq_of_lt c.isLt, Nat.zero_add]
theorem blk_mod {B N : ℕ} (b : Fin B) (c : Fin N) : (blk b c).val % N = c.val := by
  show (b.val * N + c.val) % N = c.val
  rw [Nat.add_comm, Nat.add_mul_mod_self_right, Nat.mod_eq_of_lt c.isLt]

/-- THE COLLAPSE, with the row written out by quotient and remainder: the sum over all `B * N` positions `k` of
`(δ b (k / N) * W (k % N)) * X k` is the sum over block `b` alone of `W c * X (b * N + c)`. -/
theorem sum_blockDiag {B N : ℕ} (b : Fin B) (W : Fin N → EReal) (X : Fin (B * N) → EReal) :
    ∑ k : Fin (B * N), ((if b = (⟨k.val / N, div_lt k⟩ : Fin B) then (1 : EReal) else 0) * W ⟨k.val % N, mod_lt k⟩) * X k
      = ∑ c : Fin N, W c * X (blk b c) :=
  sum_mul_of_blockDiag b W _ X fun b' c => by
    have hd : (⟨(blk b' c).val / N, div_lt (blk b' c)⟩ : Fin B) = b' := Fin.ext (blk_div b' c)
    have hm : (⟨(blk b' c).val % N, mod_lt (blk b' c)⟩ : Fin N) = c := Fin.ext (blk_mod b' c)
    rw [hd, hm]

/-! ## At the literal sizes 8 blocks of 128 in 1024 positions -/

/-- Position `c` of block `b`, of 8 blocks of 128, as an element of `Fin 1024`. -/
abbrev blk8 (b : Fin 8) (c : Fin 128) : Fin 1024 := ⟨b.val * 128 + c.val, by have := b.isLt; have := c.isLt; omega⟩

/-- `sum_mul_of_blockDiag` at 8 blocks of 128: a row of `kron (I_8, W)` against a vector of 1024 entries. -/
theorem sum_mul_of_blockDiag_8_128 (b : Fin 8) (W : Fin 128 → EReal) (A X : Fin 1024 → EReal)
    (hA : ∀ (b' : Fin 8) (c : Fin 128), A (blk8 b' c) = (if b = b' then (1 : EReal) else 0) * W c) :
    ∑ k : Fin 1024, A k * X k = ∑ c : Fin 128, W c * X (blk8 b c) :=
  sum_mul_of_blockDiag (B := 8) (N := 128) b W A X hA

/-- `sum_blockDiag` at 8 blocks of 128, the block and the offset of a position written by quotient and remainder. -/
theorem sum_blockDiag_8_128 (b : Fin 8) (W : Fin 128 → EReal) (X : Fin 1024 → EReal) :
    ∑ k : Fin 1024, ((if b = (⟨k.val / 128, by have := k.isLt; omega⟩ : Fin 8) then (1 : EReal) else 0)
        * W ⟨k.val % 128, Nat.mod_lt _ (by decide)⟩) * X k
      = ∑ c : Fin 128, W c * X (blk8 b c) :=
  sum_blockDiag (B := 8) (N := 128) b W X

end Idealize.BlockDiag
-- ==== Proof.RefBridge.lean ====
/-
  The reference's result is the specified function of its arguments.

  The region of the reference works on flattened operands: the image as a 1024 × 4096 matrix (row b·128 + c is channel
  c of batch b), the two weight halves as block-diagonal 1024 × 1024 matrices kron(I₈, ·), the labels as one row of
  1024 entries, and a table of three columns (bias, projection, timestep) of 1024 rows. An entry of the region's result
  therefore contains two sums over 1024 positions against a row of a block-diagonal matrix; each collapses to the sum
  over the 128 positions of the row's own block, which is the sum the specification writes. The closing reshape then only
  renames the entry (b·128 + o, y·64 + x) as (b, o, y, x).
-/
import proofs.«110255_g2000405613621400_pallasbulk_266_2_alg».proof.Proof.RefValue
import proofs.«110255_g2000405613621400_pallasbulk_266_2_alg».proof.Proof.RefHost
import proofs.«110255_g2000405613621400_pallasbulk_266_2_alg».proof.Proof.Spec
import proofs.«110255_g2000405613621400_pallasbulk_266_2_alg».proof.Proof.LibBlockDiag
import proofs.«110255_g2000405613621400_pallasbulk_266_2_alg».proof.Proof.LibTailReshape

set_option maxRecDepth 16384

noncomputable section

namespace Cert.ReferenceIdeal.Bridge

open Cert.ReferenceIdeal Cert.ReferenceIdeal.Gen Cert.ReferenceIdeal.Fr
open Idealize.ShloMosaic Idealize.ShloMosaic.TcCoe Idealize.SL.Sem Idealize.ShloMosaic.ValueIdx
open Idealize.BlockDiag
open scoped BigOperators

/-- AN ENTRY OF THE REGION'S RESULT IS THE SPECIFIED ELEMENT. The hypotheses say what the five arrays of the region are
    in terms of the argument arrays: `a0` the image flattened; `a1`, `a2` the block-diagonal matrices of the two halves
    of the weight (columns 0–127 and 128–255); `a3` the labels in one row; `a4` the columns bias, projection, timestep.
    Each of the two sums over 1024 positions runs against a row of a block-diagonal matrix and keeps the row's own block
    only; the quotient and remainder of y·64 + x by 64 are y and x. No finiteness is needed. -/
theorem elem_eq_spec (a0 : S1024x4096.Idx → EReal) (a1 a2 : S1024x1024.Idx → EReal) (a3 : S1x1024.Idx → EReal) (a4 : S1024x3.Idx → EReal)
    (img : (⟨4, ![8, 128, 64, 64]⟩ : Shape).Idx → EReal) (tf : (⟨1, ![8]⟩ : Shape).Idx → EReal)
    (lab : (⟨2, ![8, 128]⟩ : Shape).Idx → EReal) (w : (⟨2, ![128, 256]⟩ : Shape).Idx → EReal)
    (bias tproj : (⟨2, ![128, 1]⟩ : Shape).Idx → EReal)
    (h0 : ∀ (b : Fin 8) (ch : Fin 128) (s : Fin 4096),
      a0 (ix2 (⟨b.val * 128 + ch.val, by omega⟩ : Fin 1024) s) = img (ix4 b ch (⟨s.val / 64, by omega⟩ : Fin 64) (⟨s.val % 64, by omega⟩ : Fin 64)))
    (h8 : ∀ (b b' : Fin 8) (o c : Fin 128),
      a1 (ix2 (⟨b.val * 128 + o.val, by omega⟩ : Fin 1024) (⟨b'.val * 128 + c.val, by omega⟩ : Fin 1024))
        = (if b = b' then (1 : EReal) else 0) * w (ix2 o (⟨c.val, by omega⟩ : Fin 256)))
    (h10 : ∀ (b b' : Fin 8) (o c : Fin 128),
      a2 (ix2 (⟨b.val * 128 + o.val, by omega⟩ : Fin 1024) (⟨b'.val * 128 + c.val, by omega⟩ : Fin 1024))
        = (if b = b' then (1 : EReal) else 0) * w (ix2 o (⟨128 + c.val, by omega⟩ : Fin 256)))
    (h11 : ∀ (b : Fin 8) (j : Fin 128), a3 (ix2 (0 : Fin 1) (⟨b.val * 128 + j.val, by omega⟩ : Fin 1024)) = lab (ix2 b j))
    (h26a : ∀ (b : Fin 8) (o : Fin 128), a4 (ix2 (⟨b.val * 128 + o.val, by omega⟩ : Fin 1024) (0 : Fin 3)) = bias (ix2 o (0 : Fin 1)))
    (h26b : ∀ (b : Fin 8) (o : Fin 128), a4 (ix2 (⟨b.val * 128 + o.val, by omega⟩ : Fin 1024) (1 : Fin 3)) = tproj (ix2 o (0 : Fin 1)))
    (h26c : ∀ (b : Fin 8) (o : Fin 128), a4 (ix2 (⟨b.val * 128 + o.val, by omega⟩ : Fin 1024) (2 : Fin 3)) = tf (ix1 b))
    (b : Fin 8) (o : Fin 128) (y x : Fin 64) :
    Val.elem a0 a1 a2 a3 a4 (⟨b.val * 128 + o.val, by omega⟩ : Fin 1024) (⟨y.val * 64 + x.val, by omega⟩ : Fin 4096)
      = Cert.Spec.elt img tf lab w bias tproj b o y x := by
  -- the image sum: row b·128 + o of kron(I₈, w[:, 0:128]) against column y·64 + x of the flattened image
  have s1 : ∑ k : Fin 1024, a1 (ix2 (⟨b.val * 128 + o.val, by omega⟩ : Fin 1024) k) * a0 (ix2 k (⟨y.val * 64 + x.val, by omega⟩ : Fin 4096))
      = ∑ c : Fin 128, w (ix2 o (⟨c.val, by omega⟩ : Fin 256)) * img (ix4 b c y x) := by
    refine (sum_mul_of_blockDiag_8_128 b (fun c => w (ix2 o (⟨c.val, by omega⟩ : Fin 256)))
      (fun k => a1 (ix2 (⟨b.val * 128 + o.val, by omega⟩ : Fin 1024) k))
      (fun k => a0 (ix2 k (⟨y.val * 64 + x.val, by omega⟩ : Fin 4096))) (fun b' c => h8 b b' o c)).trans ?_
    refine Finset.sum_congr rfl fun c _ => congrArg (w (ix2 o (⟨c.val, by omega⟩ : Fin 256)) * ·) ?_
    refine (h0 b c (⟨y.val * 64 + x.val, by omega⟩ : Fin 4096)).trans ?_
    exact congrArg₂ (fun u v => img (ix4 b c u v))
      (Fin.ext (show (y.val * 64 + x.val) / 64 = y.val by omega)) (Fin.ext (show (y.val * 64 + x.val) % 64 = x.val by omega))
  -- the label sum: row b·128 + o of kron(I₈, w[:, 128:256]) against the row of labels
  have s2 : ∑ k : Fin 1024, a2 (ix2 (⟨b.val * 128 + o.val, by omega⟩ : Fin 1024) k) * a3 (ix2 (0 : Fin 1) k)
      = ∑ j : Fin 128, w (ix2 o (⟨128 + j.val, by omega⟩ : Fin 256)) * lab (ix2 b j) := by
    refine (sum_mul_of_blockDiag_8_128 b (fun c => w (ix2 o (⟨128 + c.val, by omega⟩ : Fin 256)))
      (fun k => a2 (ix2 (⟨b.val * 128 + o.val, by omega⟩ : Fin 1024) k))
      (fun k => a3 (ix2 (0 : Fin 1) k)) (fun b' c => h10 b b' o c)).trans ?_
    exact Finset.sum_congr rfl fun j _ => congrArg (w (ix2 o (⟨128 + j.val, by omega⟩ : Fin 256)) * ·) (h11 b j)
  unfold Val.elem Cert.Spec.elt Cert.Spec.cond
  rw [s1, s2, h26a b o, h26b b o, h26c b o]

/-- THE REFERENCE'S RESULT BUFFER is the specified function of the six arguments, the timestep converted to a float
    vector: the closing reshape reads the region's result matrix at (b·128 + o, y·64 + x), that entry is the specified
    element by `elem_eq_spec`, and its hypotheses are the host prefix read at an index. -/
theorem res_eq (m : (ℓ : Loc nD τ sig) → Buf (Elt Ideal) ℓ) (c : Dev nD) :
    Val.res m c = Cert.Spec.out (m ((c.tc : Thread nD τ).loc main_arg0)) (sitofp (F := Ideal) .f32 (m ((c.tc : Thread nD τ).loc main_arg1)))
      (m ((c.tc : Thread nD τ).loc main_arg2)) (m ((c.tc : Thread nD τ).loc main_arg3))
      (m ((c.tc : Thread nD τ).loc main_arg4)) (m ((c.tc : Thread nD τ).loc main_arg5)) := by
  funext i
  obtain ⟨b, o, y, x, rfl⟩ : ∃ (b : Fin 8) (o : Fin 128) (y x : Fin 64), i = ix4 b o y x := ⟨i 0, i 1, i 2, i 3, eq_ix4 i⟩
  unfold Val.res
  rw [Idealize.ShloMosaic.TailReshape.shapeCast_1024x4096_8x128x64x64_eq]
  exact elem_eq_spec _ _ _ _ _ _ _ _ _ _ _ (Cert.ReferenceIdeal.HostVal.v0_apply m c) (Cert.ReferenceIdeal.HostVal.v8_apply m c)
    (Cert.ReferenceIdeal.HostVal.v10_apply m c) (fun b j => Cert.ReferenceIdeal.HostVal.v11_apply m c b j 0)
    (Cert.ReferenceIdeal.HostVal.v26_apply0 m c) (Cert.ReferenceIdeal.HostVal.v26_apply1 m c)
    (Cert.ReferenceIdeal.HostVal.v26_apply2 m c) b o y x

end Cert.ReferenceIdeal.Bridge

end
-- ==== Proof.lean ====
/-
  The certificate of the conditioned 1×1 convolution against its block-diagonal reference.

  Both programs compute, for batch b, output channel o and pixel (y, x),
    Σ_c w[o, c] · img[b, c, y, x] + ((Σ_j w[o, 128 + j] · lab[b, j] + bias[o]) + t[b] · tproj[o]).
  The kernel grids over (batch, spatial half) with the two halves of the weight resident; the reference fuses batch
  and channel into one axis of 1024 and multiplies by the Kronecker products of the 8×8 identity with the two halves
  of the weight. On the extended reals a product with a zero entry of the identity is zero and a sum is unchanged by
  zero terms, so each row of a block-diagonal product collapses to the product with its diagonal block: no
  finiteness of the inputs is used. The three frames come from each program's frame run (the body's one covering
  store, every input block found in place at every point); the value claim pairs the two runs at the common function
  `Cert.Spec.out` of the arguments.
-/
import proofs.«110255_g2000405613621400_pallasbulk_266_2_alg».proof.Defs
import proofs.«110255_g2000405613621400_pallasbulk_266_2_alg».proof.Proof.Gen.Kernel
import proofs.«110255_g2000405613621400_pallasbulk_266_2_alg».proof.Proof.Gen.KernelIdeal
import proofs.«110255_g2000405613621400_pallasbulk_266_2_alg».proof.Proof.Gen.ReferenceIdeal
import proofs.«110255_g2000405613621400_pallasbulk_266_2_alg».proof.Proof.Gen.Pre_finite_inputs
import proofs.«110255_g2000405613621400_pallasbulk_266_2_alg».proof.Proof.KerFrameBits
import proofs.«110255_g2000405613621400_pallasbulk_266_2_alg».proof.Proof.KerBridge
import proofs.«110255_g2000405613621400_pallasbulk_266_2_alg».proof.Proof.RefBridge
import Idealize.ShloMosaic.Adequacy
import Idealize.ShloMosaic.Init

noncomputable section

namespace Cert.Proof

open Idealize.ShloMosaic Idealize.SL.Sem

/-- Each program's frame is its frame run read at the six arguments. -/
theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ => Cert.ReferenceIdeal.Fr.frame m ρ

/-- At the ideal instance both runs end with the result buffer at the common function of the arguments, which agree. -/
theorem algebraic : Cert.algebraic_KernelIdeal_ReferenceIdeal := by
  intro m ρ m' ρ' _ hagree
  refine ⟨fun c => Cert.KernelIdeal.Val.res m c, Cert.KernelIdeal.Val.run m ρ, ?_⟩
  refine (θ_run Cert.ReferenceIdeal.defs _ _).mono (fun _ h c => ⟨(h c).1.trans ?_, (h c).2⟩) (Cert.ReferenceIdeal.Val.run m' ρ')
  show Cert.ReferenceIdeal.Val.res m' c = Cert.KernelIdeal.Val.res m c
  rw [Cert.ReferenceIdeal.Bridge.res_eq m' c, Cert.KernelIdeal.Bridge.res_eq m c,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
